-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2 : Shape := ⟨3, ![4, 8192, 2]⟩
abbrev S_ : Shape := ⟨0, ![]⟩

class Facts : Prop where
  bcast_S_S4x8192x2 : S_.BroadcastsInDim S4x8192x2 (![] : Fin 0 → Fin S4x8192x2.rank)
  reducesTo_S4x8192x2_S_d0_1_2 : S4x8192x2.ReducesTo [0, 1, 2] S_
  h_S_ : 0 < S_.numel

variable [Facts]

def fn {F : FTy → Type} [FloatOps F] (main_arg0 : FVec F S4x8192x2 .f32) : IVec S_ 1 :=
  let main_v0 : FVec F S4x8192x2 .f32 := Host.absf main_arg0
  let main_cst : FVec F S_ .f32 := constant S_ .f32 0x7F800000#32
  let main_v1 : FVec F S4x8192x2 .f32 := broadcastInDim S4x8192x2 ![] bcast_S_S4x8192x2 main_cst
  let main_v2 : IVec S4x8192x2 1 := cmpf .olt main_v0 main_v1
  let main_c : IVec S_ 1 := constantI S_ 1 1#1
  let main_v3 : IVec S_ 1 := (fun x v => Host.reduce IntOp.andi x v reducesTo_S4x8192x2_S_d0_1_2 h_S_) main_v2 main_c
  main_v3
-- ==== Kernel.lean ====
abbrev S4x8192x2 : Shape := ⟨3, ![4, 8192, 2]⟩
abbrev S4x2x8192 : Shape := ⟨3, ![4, 2, 8192]⟩
abbrev S4x8192x8192 : Shape := ⟨3, ![4, 8192, 8192]⟩
abbrev S1x1024x2 : Shape := ⟨3, ![1, 1024, 2]⟩
abbrev S1x2x1024 : Shape := ⟨3, ![1, 2, 1024]⟩
abbrev S1x1024x1024 : Shape := ⟨3, ![1, 1024, 1024]⟩
abbrev S1024x2 : Shape := ⟨2, ![1024, 2]⟩
abbrev S1x1024x1 : Shape := ⟨3, ![1, 1024, 1]⟩
abbrev S1024x1 : Shape := ⟨2, ![1024, 1]⟩
abbrev S1x1x1024 : Shape := ⟨3, ![1, 1, 1024]⟩
abbrev S1x1024 : Shape := ⟨2, ![1, 1024]⟩
abbrev S1024x1024 : Shape := ⟨2, ![1024, 1024]⟩

abbrev nBuf : Space → Nat
  | .hbm => 4
  | .vmem => 11
  | .smem => 0
  | _ => 0

abbrev bufTy : (tb : Table) → Fin (tcTables nBuf tb) → BufTy
  | .hbm, ⟨0, _⟩ => ⟨S4x8192x2, .f32⟩
  | .hbm, ⟨1, _⟩ => ⟨S4x2x8192, .f32⟩
  | .hbm, ⟨2, _⟩ => ⟨S4x8192x8192, .f32⟩
  | .hbm, ⟨3, _⟩ => ⟨S4x8192x2, .f32⟩
  | .local _ .vmem, ⟨0, _⟩ => ⟨S1x1024x2, .f32⟩
  | .local _ .vmem, ⟨1, _⟩ => ⟨S1x1024x2, .f32⟩
  | .local _ .vmem, ⟨2, _⟩ => ⟨S1x2x1024, .f32⟩
  | .local _ .vmem, ⟨3, _⟩ => ⟨S1x2x1024, .f32⟩
  | .local _ .vmem, ⟨4, _⟩ => ⟨S1x1024x2, .f32⟩
  | .local _ .vmem, ⟨5, _⟩ => ⟨S1x1024x2, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x2, .f32⟩
  | .local _ .vmem, ⟨9, _⟩ => ⟨S1x1024x2, .f32⟩
  | .local _ .vmem, ⟨10, _⟩ => ⟨S1024x2, .f32⟩
  | _, _ => ⟨S4x8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v51 : BitVec 1 := Scalar.cmpi .eq arg2 c7_i32
  let v52 : BitVec 32 := Scalar.extui v51
  let c0_i32_26 : BitVec 32 := 0#32
  let v53 : BitVec 1 := Scalar.cmpi .ne v52 c0_i32_26
  v53

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  transposes_S4x8192x2_S4x2x8192_0_2_1 : S4x8192x2.Transposes [0, 2, 1] S4x2x8192
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1x1024x2_S1x1024x1_0_0_0 : ∀ a, (![0, 0, 0] : Fin 3 → Nat) a + S1x1024x1.size a ≤ S1x1024x2.size a
  h_S1x1024x1 : 0 < S1x1024x1.numel
  shapeCasts_S1x1024x1_S1024x1 : S1x1024x1.ShapeCasts S1024x1
  inb_S1x1024x2_S1x1024x1_0_0_1 : ∀ a, (![0, 0, 1] : Fin 3 → Nat) a + S1x1024x1.size a ≤ S1x1024x2.size a
  inb_S1x2x1024_S1x1x1024_0_0_0 : ∀ a, (![0, 0, 0] : Fin 3 → Nat) a + S1x1x1024.size a ≤ S1x2x1024.size a
  h_S1x1x1024 : 0 < S1x1x1024.numel
  shapeCasts_S1x1x1024_S1x1024 : S1x1x1024.ShapeCasts S1x1024
  inb_S1x2x1024_S1x1x1024_0_1_0 : ∀ a, (![0, 1, 0] : Fin 3 → Nat) a + S1x1x1024.size a ≤ S1x2x1024.size a
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  bitsLt_bf16_f32 : FTy.bits .bf16 < FTy.bits .f32
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  shapeCasts_S1024x2_S1x1024x2 : S1024x2.ShapeCasts S1x1024x2
  dot_S1024x1024_S1024x2_S1024x2_1_0_0_1_n_n_wf : DotDims.WF S1024x1024 S1024x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2.size a ≤ S4x8192x2.size a
  hwx0_0 : ∀ i : grid0.Coords, EltTy.bits .f32 = 32 ∨ (Rect.block (s := S4x8192x2) S1x1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1024.size a ≤ S4x2x8192.size a
  hwx0_1 : ∀ i : grid0.Coords, EltTy.bits .f32 = 32 ∨ (Rect.block (s := S4x2x8192) S1x2x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2.size a ≤ S4x8192x2.size a
  hwx0_2 : ∀ i : grid0.Coords, EltTy.bits .f32 = 32 ∨ (Rect.block (s := S4x8192x2) S1x1024x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x8192x8192.size a
  hwx0_3 : ∀ i : grid0.Coords, EltTy.bits .f32 = 32 ∨ (Rect.block (s := S4x8192x8192) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2.size a ≤ S4x8192x2.size a
  hwx0_4 : ∀ i : grid0.Coords, EltTy.bits .f32 = 32 ∨ (Rect.block (s := S4x8192x2) S1x1024x2.size (cc0_transform_4 i) (hinb0_4 i)).WholeWords (EltTy.packing .f32)

variable [Facts₀]

def dot_S1024x1024_S1024x2_S1024x2_1_0_0_1_n_n : DotDims S1024x1024 S1024x2 S1024x2 where
  lhsContracting := [1]
  rhsContracting := [0]
  lhsNonContracting := [0]
  rhsNonContracting := [1]
  lhsBatch := []
  rhsBatch := []
  wf := dot_S1024x1024_S1024x2_S1024x2_1_0_0_1_n_n_wf

abbrev win0_0 : Pipeline.Window sig grid0 :=
  Pipeline.Window.ofSpec (Memref.whole main_arg0) S1x1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1024x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1024x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x8192x2 : Shape := ⟨3, ![4, 8192, 2]⟩
abbrev S4x8192x8192 : Shape := ⟨3, ![4, 8192, 8192]⟩
abbrev S4x8192x1 : Shape := ⟨3, ![4, 8192, 1]⟩
abbrev S4x8192 : Shape := ⟨2, ![4, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x2, .f32⟩
  | .hbm, ⟨1, _⟩ => ⟨S4x8192x8192, .f32⟩
  | .hbm, ⟨2, _⟩ => ⟨S4x8192x1, .f32⟩
  | .hbm, ⟨3, _⟩ => ⟨S4x8192, .f32⟩
  | .hbm, ⟨4, _⟩ => ⟨S4x8192x1, .f32⟩
  | .hbm, ⟨5, _⟩ => ⟨S4x8192, .f32⟩
  | .hbm, ⟨6, _⟩ => ⟨S4x8192, .f32⟩
  | .hbm, ⟨7, _⟩ => ⟨S4x8192x1, .f32⟩
  | .hbm, ⟨8, _⟩ => ⟨S4x8192x1, .f32⟩
  | .hbm, ⟨9, _⟩ => ⟨S4x8192x2, .f32⟩
  | .hbm, ⟨10, _⟩ => ⟨S4x8192x8192, .f32⟩
  | .hbm, ⟨11, _⟩ => ⟨S_, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192x8192, .f32⟩
  | .hbm, ⟨24, _⟩ => ⟨S4x8192x8192, .i1⟩
  | .hbm, ⟨25, _⟩ => ⟨S4x8192x8192, .f32⟩
  | .hbm, ⟨26, _⟩ => ⟨S4x8192x8192, .f32⟩
  | .hbm, ⟨27, _⟩ => ⟨S4x8192x8192, .f32⟩
  | .hbm, ⟨28, _⟩ => ⟨S4x8192x2, .f32⟩
  | _, _ => ⟨S4x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]

class Facts₀ : Prop where
  slices_S4x8192x2_S4x8192x1_0_0_1 : S4x8192x2.Slices ![0, 0, 1] S4x8192x1
  shapeCasts_S4x8192x1_S4x8192 : S4x8192x1.ShapeCasts S4x8192
  slices_S4x8192x2_S4x8192x1_0_0_0 : S4x8192x2.Slices ![0, 0, 0] S4x8192x1
  bcast_S4x8192_S4x8192x1_0_1 : S4x8192.BroadcastsInDim S4x8192x1 (![0, 1] : Fin 2 → Fin S4x8192x1.rank)
  concatenates_S4x8192x1_S4x8192x1_S4x8192x2_d2 : Shape.Concatenates [S4x8192x1, S4x8192x1] S4x8192x2 2
  bcast_S_S4x8192x8192 : S_.BroadcastsInDim S4x8192x8192 (![] : Fin 0 → Fin S4x8192x8192.rank)
  dot_S4x8192x2_S4x8192x2_S4x8192x8192_2_2_1_1_0_0_wf : DotDims.WF S4x8192x2 S4x8192x2 S4x8192x8192 [2] [2] [1] [1] [0] [0]
  dot_S4x8192x8192_S4x8192x2_S4x8192x2_2_1_1_2_0_0_wf : DotDims.WF S4x8192x8192 S4x8192x2 S4x8192x2 [2] [1] [1] [2] [0] [0]

variable [Facts₀]

def dot_S4x8192x2_S4x8192x2_S4x8192x8192_2_2_1_1_0_0 : DotDims S4x8192x2 S4x8192x2 S4x8192x8192 where
  lhsContracting := [2]
  rhsContracting := [2]
  lhsNonContracting := [1]
  rhsNonContracting := [1]
  lhsBatch := [0]
  rhsBatch := [0]
  wf := dot_S4x8192x2_S4x8192x2_S4x8192x8192_2_2_1_1_0_0_wf
def dot_S4x8192x8192_S4x8192x2_S4x8192x2_2_1_1_2_0_0 : DotDims S4x8192x8192 S4x8192x2 S4x8192x2 where
  lhsContracting := [2]
  rhsContracting := [1]
  lhsNonContracting := [1]
  rhsNonContracting := [2]
  lhsBatch := [0]
  rhsBatch := [0]
  wf := dot_S4x8192x8192_S4x8192x2_S4x8192x2_2_1_1_2_0_0_wf

class Facts : Prop extends Facts₀ where

variable [Facts]
-- ==== Proof.KBFrameBase.lean ====
/-
  What the three control cases of the kernel body share.

  The grid has 4·8·8 = 256 points, the key-tile coordinate j running fastest, so j = t mod 8.  The body resets
  its accumulator where j = 0, adds the tile's product into it at every point, and copies it to the context
  block where j = 7.  Here: the arrays as the region finds them (the transpose of the states has been written
  by then, the states themselves are untouched), each window's block at a point, the two branch conditions in
  closed form over the grid, at which points the context window is idle, and the staging and scratch buffers
  as the body is handed them.
-/
import proofs.«112722_j14963666059655_2_alg».proof.Proof.Gen.Kernel.Launch
import proofs.«112722_j14963666059655_2_alg».proof.Proof.Gen.Kernel.Skeleton
import proofs.«112722_j14963666059655_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the one host operation (the transpose). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is that host operation and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose writes its own result only: the region finds the states as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's buffer holds its block at every point — it is refetched only when the query tile moves,
    and the body only reads it. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The transposed key window's buffer holds its block at every point. -/
theorem before_kt_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The key window's buffer holds its block at every point. -/
theorem before_k_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, in closed form -/

/-- "This is the first key tile": the body's first branch, from the grid coordinates. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the last key tile": the body's second branch. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live_q : ∀ t : Fin cfg0.N, cfg0.idle 0 (grid0.coords t) = false := by decide +kernel
theorem live_kt : ∀ t : Fin cfg0.N, cfg0.idle 1 (grid0.coords t) = false := by decide +kernel
theorem live_k : ∀ t : Fin cfg0.N, cfg0.idle 2 (grid0.coords t) = false := by decide +kernel
theorem live_att : ∀ t : Fin cfg0.N, cfg0.idle 3 (grid0.coords t) = false := by decide +kernel
/-- Away from the last key tile the body stores nothing into the context window, -/
theorem idle_ctx : ∀ t : Fin cfg0.N, ¬condLast (grid0.coords t) → cfg0.idle 4 (grid0.coords t) = true := by decide +kernel
/-- and the pipeline does not write it back there; -/
theorem noFlush_ctx : ∀ t : Fin cfg0.N, ¬condLast (grid0.coords t) → (cfg0.win 4).flush t = false := by decide +kernel
/-- at the last key tile the body stores the context block. -/
theorem live_ctx : ∀ t : Fin cfg0.N, condLast (grid0.coords t) → cfg0.idle 4 (grid0.coords t) = false := by decide +kernel

/-! ## The buffers the body is handed -/

/-- One staging buffer of each output window, through which its contents are stated (the choice does not matter). -/
abbrev VAtt : View sig .tc .vmem S1x1024x1024 .f32 := (Memref.whole cc0_stg3_0 : Memref sig .tc .vmem S1x1024x1024 .f32).view
abbrev VCtx : View sig .tc .vmem S1x1024x2 .f32 := (Memref.whole cc0_stg4_0 : Memref sig .tc .vmem S1x1024x2 .f32).view
/-- Each window's current staging buffer at point `t`, as the pipeline passes it, and that it is a whole buffer. -/
abbrev ms_q (t : Fin cfg0.N) : Memref sig .tc .vmem S1x1024x2 .f32 := win0_0.stage (cfg0.slots t 0)
abbrev hs_q (t : Fin cfg0.N) : (ms_q t).IsWhole := hstage0_0 ((cfg0.slots t 0).cast nbuf0_0)
abbrev ms_kt (t : Fin cfg0.N) : Memref sig .tc .vmem S1x2x1024 .f32 := win0_1.stage (cfg0.slots t 1)
abbrev hs_kt (t : Fin cfg0.N) : (ms_kt t).IsWhole := hstage0_1 ((cfg0.slots t 1).cast nbuf0_1)
abbrev ms_k (t : Fin cfg0.N) : Memref sig .tc .vmem S1x1024x2 .f32 := win0_2.stage (cfg0.slots t 2)
abbrev hs_k (t : Fin cfg0.N) : (ms_k t).IsWhole := hstage0_2 ((cfg0.slots t 2).cast nbuf0_2)
abbrev ms_att (t : Fin cfg0.N) : Memref sig .tc .vmem S1x1024x1024 .f32 := win0_3.stage (cfg0.slots t 3)
abbrev hs_att (t : Fin cfg0.N) : (ms_att t).IsWhole := hstage0_3 ((cfg0.slots t 3).cast nbuf0_3)
abbrev ms_ctx (t : Fin cfg0.N) : Memref sig .tc .vmem S1x1024x2 .f32 := win0_4.stage (cfg0.slots t 4)
abbrev hs_ctx (t : Fin cfg0.N) : (ms_ctx t).IsWhole := hstage0_4 ((cfg0.slots t 4).cast nbuf0_4)
/-- The accumulator: a whole scoped buffer of the kernel's own, carried from point to point. -/
abbrev accM : Memref sig .tc .vmem S1024x2 .f32 := Memref.whole cc0_scratch0
abbrev VAcc : View sig .tc .vmem S1024x2 .f32 := accM.view

/-- The kernel's scoped buffers other than the staging buffers are the accumulator alone. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

end Cert.Kernel.Fr

end
-- ==== Proof.KBFrameRuns.lean ====
/-
  The kernel body run once per control case, on whatever staging buffers the pipeline hands it.

  In every case the body reads the query block's two columns and the transposed key block's two rows,
  overwrites the whole attention tile, and overwrites the whole accumulator with its old contents (zero on the
  first key tile) plus the tile's product with the key block.  On the first key tile the accumulator's old
  contents are irrelevant; on the last the context block is overwritten with the new accumulator; elsewhere the
  context buffer is left as it was found.  What each buffer ends with is found by running the body: the lists
  of stored pieces are the witnesses.
-/
import proofs.«112722_j14963666059655_2_alg».proof.Proof.KBFrameBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First key tile: the accumulator is handed at anything and reset; the context buffer is handed back untouched. -/
noncomputable def runFirst (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : condFirst i) (hL : ¬condLast i)
    (x0 : Vec F S1x1024x2 .f32) (x1 : Vec F S1x2x1024 .f32) (x2 : Vec F S1x1024x2 .f32) :
    Σ' (L3 : List (View.Piece (Elt F) S1x1024x1024 .f32)), { LS : List (View.Piece (Elt F) S1024x2 .f32) //
      ∀ (xi4 : Vec F S1x1024x2 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__qfa_kernel i arg3 harg3 arg4 harg4 arg5 harg5 arg6 harg6 arg7 harg7 arg8 harg8) K } := by
  refine ⟨?_, ?_, fun xi4 E K => ?run⟩
  case run =>
    simp only [cc0__qfa_kernel_eq_skeleton]; unfold cc0__qfa_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
    obtain rfl := harg3.eq_unread hf0; obtain rfl := harg4.eq_unread hf1; obtain rfl := harg5.eq_unread hf2; obtain rfl := harg7.eq_unread hf4
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    iexists _; iexact HS

set_option maxHeartbeats 1000000 in
/-- A middle key tile: the accumulator is handed at what the point before left (`xs`); the context buffer is handed back untouched. -/
noncomputable def runMid (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : ¬condLast i)
    (x0 : Vec F S1x1024x2 .f32) (x1 : Vec F S1x2x1024 .f32) (x2 : Vec F S1x1024x2 .f32) (xs : Vec F S1024x2 .f32) :
    Σ' (L3 : List (View.Piece (Elt F) S1x1024x1024 .f32)), { LS : List (View.Piece (Elt F) S1024x2 .f32) //
      ∀ (xi4 : Vec F S1x1024x2 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__qfa_kernel i arg3 harg3 arg4 harg4 arg5 harg5 arg6 harg6 arg7 harg7 arg8 harg8) K } := by
  refine ⟨?_, ?_, fun xi4 E K => ?run⟩
  case run =>
    simp only [cc0__qfa_kernel_eq_skeleton]; unfold cc0__qfa_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
    obtain rfl := harg3.eq_unread hf0; obtain rfl := harg4.eq_unread hf1; obtain rfl := harg5.eq_unread hf2; obtain rfl := harg7.eq_unread hf4; obtain rfl := harg8.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    iexists _; iexact HS

set_option maxHeartbeats 1000000 in
/-- The last key tile: the accumulator is handed at what the point before left; the context buffer, handed at anything, is overwritten. -/
noncomputable def runLast (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i)
    (x0 : Vec F S1x1024x2 .f32) (x1 : Vec F S1x2x1024 .f32) (x2 : Vec F S1x1024x2 .f32) (xs : Vec F S1024x2 .f32) :
    Σ' (L3 : List (View.Piece (Elt F) S1x1024x1024 .f32)), Σ' (L4 : List (View.Piece (Elt F) S1x1024x2 .f32)), { LS : List (View.Piece (Elt F) S1024x2 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc0__qfa_kernel i arg3 harg3 arg4 harg4 arg5 harg5 arg6 harg6 arg7 harg7 arg8 harg8) K } := by
  refine ⟨?_, ?_, ?_, fun E K => ?run⟩
  case run =>
    simp only [cc0__qfa_kernel_eq_skeleton]; unfold cc0__qfa_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg3.eq_unread hf0; obtain rfl := harg4.eq_unread hf1; obtain rfl := harg5.eq_unread hf2; obtain rfl := harg8.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact HS

end Cert.Kernel.Fr

end
-- ==== Proof.KBFrameBody.lean ====
/-
  The frame of the kernel: every weakly fair execution terminates without a fault, and the states end unchanged.

  What each buffer holds after the body at each grid point is defined by recursion on the point: the attention
  tile and the accumulator are what that point's case of the body leaves (the accumulator of a later key tile
  computed from the one the point before left), the context block is what the last key tile's case leaves.
  The region's invariant before a point is the accumulator at the contents the point before left (anything before
  the very first point).  The states are handed to the kernel through two windows — the query rows and the key
  rows — so each of the two holds one half of the share of that one buffer; the transposed states and the two
  results are held whole.  With that split, the body's triple at every point, and the invariant, the pipeline's
  launch theorem for windows sharing an array gives the run.
-/
import proofs.«112722_j14963666059655_2_alg».proof.Proof.KBFrameRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each buffer: its stored pieces read back, and that they cover the buffer -/

def attF (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : condFirst i) (hL : ¬condLast i) (x0 : Vec F S1x1024x2 .f32) (x1 : Vec F S1x2x1024 .f32) (x2 : Vec F S1x1024x2 .f32) : Vec F S1x1024x1024 .f32 :=
  VAtt.read (Elt F) (VAtt.writes (Elt F) VAtt.junk (runFirst c i arg3 harg3 arg4 harg4 arg5 harg5 arg6 harg6 arg7 harg7 arg8 harg8 hF hL x0 x1 x2).1)
theorem coverAttF (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : condFirst i) (hL : ¬condLast i) (x0 : Vec F S1x1024x2 .f32) (x1 : Vec F S1x2x1024 .f32) (x2 : Vec F S1x1024x2 .f32) (y : S1x1024x1024.Idx) :
    ∃ pc ∈ (runFirst c i arg3 harg3 arg4 harg4 arg5 harg5 arg6 harg6 arg7 harg7 arg8 harg8 hF hL x0 x1 x2).1, y ∈ pc.1.set :=
  View.cover_of_tiledL (runFirst c i arg3 harg3 arg4 harg4 arg5 harg5 arg6 harg6 arg7 harg7 arg8 harg8 hF hL x0 x1 x2).1 S1x1024x1024.size (by sl_kernel_rfl) y
def accF (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : condFirst i) (hL : ¬condLast i) (x0 : Vec F S1x1024x2 .f32) (x1 : Vec F S1x2x1024 .f32) (x2 : Vec F S1x1024x2 .f32) : Vec F S1024x2 .f32 :=
  VAcc.read (Elt F) (VAcc.writes (Elt F) VAcc.junk (runFirst c i arg3 harg3 arg4 harg4 arg5 harg5 arg6 harg6 arg7 harg7 arg8 harg8 hF hL x0 x1 x2).2.1)
theorem coverAccF (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : condFirst i) (hL : ¬condLast i) (x0 : Vec F S1x1024x2 .f32) (x1 : Vec F S1x2x1024 .f32) (x2 : Vec F S1x1024x2 .f32) (y : S1024x2.Idx) :
    ∃ pc ∈ (runFirst c i arg3 harg3 arg4 harg4 arg5 harg5 arg6 harg6 arg7 harg7 arg8 harg8 hF hL x0 x1 x2).2.1, y ∈ pc.1.set :=
  View.cover_of_tiledL (runFirst c i arg3 harg3 arg4 harg4 arg5 harg5 arg6 harg6 arg7 harg7 arg8 harg8 hF hL x0 x1 x2).2.1 S1024x2.size (by sl_kernel_rfl) y

def attM (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : ¬condLast i) (x0 : Vec F S1x1024x2 .f32) (x1 : Vec F S1x2x1024 .f32) (x2 : Vec F S1x1024x2 .f32) (xs : Vec F S1024x2 .f32) : Vec F S1x1024x1024 .f32 :=
  VAtt.read (Elt F) (VAtt.writes (Elt F) VAtt.junk (runMid c i arg3 harg3 arg4 harg4 arg5 harg5 arg6 harg6 arg7 harg7 arg8 harg8 hF hL x0 x1 x2 xs).1)
theorem coverAttM (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : ¬condLast i) (x0 : Vec F S1x1024x2 .f32) (x1 : Vec F S1x2x1024 .f32) (x2 : Vec F S1x1024x2 .f32) (xs : Vec F S1024x2 .f32) (y : S1x1024x1024.Idx) :
    ∃ pc ∈ (runMid c i arg3 harg3 arg4 harg4 arg5 harg5 arg6 harg6 arg7 harg7 arg8 harg8 hF hL x0 x1 x2 xs).1, y ∈ pc.1.set :=
  View.cover_of_tiledL (runMid c i arg3 harg3 arg4 harg4 arg5 harg5 arg6 harg6 arg7 harg7 arg8 harg8 hF hL x0 x1 x2 xs).1 S1x1024x1024.size (by sl_kernel_rfl) y
def accMid (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : ¬condLast i) (x0 : Vec F S1x1024x2 .f32) (x1 : Vec F S1x2x1024 .f32) (x2 : Vec F S1x1024x2 .f32) (xs : Vec F S1024x2 .f32) : Vec F S1024x2 .f32 :=
  VAcc.read (Elt F) (VAcc.writes (Elt F) VAcc.junk (runMid c i arg3 harg3 arg4 harg4 arg5 harg5 arg6 harg6 arg7 harg7 arg8 harg8 hF hL x0 x1 x2 xs).2.1)
theorem coverAccM (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : ¬condLast i) (x0 : Vec F S1x1024x2 .f32) (x1 : Vec F S1x2x1024 .f32) (x2 : Vec F S1x1024x2 .f32) (xs : Vec F S1024x2 .f32) (y : S1024x2.Idx) :
    ∃ pc ∈ (runMid c i arg3 harg3 arg4 harg4 arg5 harg5 arg6 harg6 arg7 harg7 arg8 harg8 hF hL x0 x1 x2 xs).2.1, y ∈ pc.1.set :=
  View.cover_of_tiledL (runMid c i arg3 harg3 arg4 harg4 arg5 harg5 arg6 harg6 arg7 harg7 arg8 harg8 hF hL x0 x1 x2 xs).2.1 S1024x2.size (by sl_kernel_rfl) y

def attL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) : Vec F S1x1024x1024 .f32 :=
  VAtt.read (Elt F) (VAtt.writes (Elt F) VAtt.junk (runLast c i arg3 harg3 arg4 harg4 arg5 harg5 arg6 harg6 arg7 harg7 arg8 harg8 hF hL x0 x1 x2 xs).1)
theorem coverAttL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) (y : S1x1024x1024.Idx) :
    ∃ pc ∈ (runLast c i arg3 harg3 arg4 harg4 arg5 harg5 arg6 harg6 arg7 harg7 arg8 harg8 hF hL x0 x1 x2 xs).1, y ∈ pc.1.set :=
  View.cover_of_tiledL (runLast c i arg3 harg3 arg4 harg4 arg5 harg5 arg6 harg6 arg7 harg7 arg8 harg8 hF hL x0 x1 x2 xs).1 S1x1024x1024.size (by sl_kernel_rfl) y
def ctxL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) : Vec F S1x1024x2 .f32 :=
  VCtx.read (Elt F) (VCtx.writes (Elt F) VCtx.junk (runLast c i arg3 harg3 arg4 harg4 arg5 harg5 arg6 harg6 arg7 harg7 arg8 harg8 hF hL x0 x1 x2 xs).2.1)
theorem coverCtxL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) (y : S1x1024x2.Idx) :
    ∃ pc ∈ (runLast c i arg3 harg3 arg4 harg4 arg5 harg5 arg6 harg6 arg7 harg7 arg8 harg8 hF hL x0 x1 x2 xs).2.1, y ∈ pc.1.set :=
  View.cover_of_tiledL (runLast c i arg3 harg3 arg4 harg4 arg5 harg5 arg6 harg6 arg7 harg7 arg8 harg8 hF hL x0 x1 x2 xs).2.1 S1x1024x2.size (by sl_kernel_rfl) y
def accL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) : Vec F S1024x2 .f32 :=
  VAcc.read (Elt F) (VAcc.writes (Elt F) VAcc.junk (runLast c i arg3 harg3 arg4 harg4 arg5 harg5 arg6 harg6 arg7 harg7 arg8 harg8 hF hL x0 x1 x2 xs).2.2.1)
theorem coverAccL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) (y : S1024x2.Idx) :
    ∃ pc ∈ (runLast c i arg3 harg3 arg4 harg4 arg5 harg5 arg6 harg6 arg7 harg7 arg8 harg8 hF hL x0 x1 x2 xs).2.2.1, y ∈ pc.1.set :=
  View.cover_of_tiledL (runLast c i arg3 harg3 arg4 harg4 arg5 harg5 arg6 harg6 arg7 harg7 arg8 harg8 hF hL x0 x1 x2 xs).2.2.1 S1024x2.size (by sl_kernel_rfl) y

/-- Where the body stores nothing into the context buffer the proof data need a value nobody consults. -/
def ctxIdle : Vec F S1x1024x2 .f32 := VCtx.read (Elt F) VCtx.junk

/-! ## The case a point is in -/

theorem notLast_of_first (t : Fin cfg0.N) (h0 : t.val % 8 = 0) : ¬condLast (grid0.coords t) :=
  fun h => by have := (hcondLast t).mp h; omega
theorem notFirst (t : Fin cfg0.N) (h0 : ¬t.val % 8 = 0) : ¬condFirst (grid0.coords t) := fun h => h0 ((hcondFirst t).mp h)
theorem notLast (t : Fin cfg0.N) (h7 : ¬t.val % 8 = 7) : ¬condLast (grid0.coords t) := fun h => h7 ((hcondLast t).mp h)

/-! ## What the buffers hold after each point -/

/-- After the body at position `n`: the attention tile, the context block, the accumulator. -/
def outsAt (c : Dev nD) : (n : ℕ) → n < cfg0.N → Vec F S1x1024x1024 .f32 × Vec F S1x1024x2 .f32 × Vec F S1024x2 .f32
  | 0, hn => have h0 : (⟨0, hn⟩ : Fin cfg0.N).val % 8 = 0 := Nat.zero_mod _
    (attF c (grid0.coords ⟨0, hn⟩) (ms_q ⟨0, hn⟩) (hs_q ⟨0, hn⟩) (ms_kt ⟨0, hn⟩) (hs_kt ⟨0, hn⟩) (ms_k ⟨0, hn⟩) (hs_k ⟨0, hn⟩) (ms_att ⟨0, hn⟩) (hs_att ⟨0, hn⟩) (ms_ctx ⟨0, hn⟩) (hs_ctx ⟨0, hn⟩) accM (Memref.isWhole_whole _) ((hcondFirst ⟨0, hn⟩).mpr h0) (notLast_of_first ⟨0, hn⟩ h0) (iblk m c 0 ⟨0, hn⟩) (iblk m c 1 ⟨0, hn⟩) (iblk m c 2 ⟨0, hn⟩), ctxIdle, accF c (grid0.coords ⟨0, hn⟩) (ms_q ⟨0, hn⟩) (hs_q ⟨0, hn⟩) (ms_kt ⟨0, hn⟩) (hs_kt ⟨0, hn⟩) (ms_k ⟨0, hn⟩) (hs_k ⟨0, hn⟩) (ms_att ⟨0, hn⟩) (hs_att ⟨0, hn⟩) (ms_ctx ⟨0, hn⟩) (hs_ctx ⟨0, hn⟩) accM (Memref.isWhole_whole _) ((hcondFirst ⟨0, hn⟩).mpr h0) (notLast_of_first ⟨0, hn⟩ h0) (iblk m c 0 ⟨0, hn⟩) (iblk m c 1 ⟨0, hn⟩) (iblk m c 2 ⟨0, hn⟩))
  | n + 1, hn =>
    if h0 : (n + 1) % 8 = 0 then
      (attF c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) ((hcondFirst ⟨n + 1, hn⟩).mpr h0) (notLast_of_first ⟨n + 1, hn⟩ h0) (iblk m c 0 ⟨n + 1, hn⟩) (iblk m c 1 ⟨n + 1, hn⟩) (iblk m c 2 ⟨n + 1, hn⟩), ctxIdle, accF c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) ((hcondFirst ⟨n + 1, hn⟩).mpr h0) (notLast_of_first ⟨n + 1, hn⟩ h0) (iblk m c 0 ⟨n + 1, hn⟩) (iblk m c 1 ⟨n + 1, hn⟩) (iblk m c 2 ⟨n + 1, hn⟩))
    else if h7 : (n + 1) % 8 = 7 then
      (attL c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) (notFirst ⟨n + 1, hn⟩ h0) ((hcondLast ⟨n + 1, hn⟩).mpr h7) (iblk m c 0 ⟨n + 1, hn⟩) (iblk m c 1 ⟨n + 1, hn⟩) (iblk m c 2 ⟨n + 1, hn⟩) (outsAt c n (Nat.lt_of_succ_lt hn)).2.2, ctxL c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) (notFirst ⟨n + 1, hn⟩ h0) ((hcondLast ⟨n + 1, hn⟩).mpr h7) (iblk m c 0 ⟨n + 1, hn⟩) (iblk m c 1 ⟨n + 1, hn⟩) (iblk m c 2 ⟨n + 1, hn⟩) (outsAt c n (Nat.lt_of_succ_lt hn)).2.2, accL c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) (notFirst ⟨n + 1, hn⟩ h0) ((hcondLast ⟨n + 1, hn⟩).mpr h7) (iblk m c 0 ⟨n + 1, hn⟩) (iblk m c 1 ⟨n + 1, hn⟩) (iblk m c 2 ⟨n + 1, hn⟩) (outsAt c n (Nat.lt_of_succ_lt hn)).2.2)
    else
      (attM c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) (notFirst ⟨n + 1, hn⟩ h0) (notLast ⟨n + 1, hn⟩ h7) (iblk m c 0 ⟨n + 1, hn⟩) (iblk m c 1 ⟨n + 1, hn⟩) (iblk m c 2 ⟨n + 1, hn⟩) (outsAt c n (Nat.lt_of_succ_lt hn)).2.2, ctxIdle, accMid c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) (notFirst ⟨n + 1, hn⟩ h0) (notLast ⟨n + 1, hn⟩ h7) (iblk m c 0 ⟨n + 1, hn⟩) (iblk m c 1 ⟨n + 1, hn⟩) (iblk m c 2 ⟨n + 1, hn⟩) (outsAt c n (Nat.lt_of_succ_lt hn)).2.2)

theorem outsAt_first (c : Dev nD) (t : Fin cfg0.N) (h0 : t.val % 8 = 0) :
    outsAt m c t.val t.isLt = (attF c (grid0.coords t) (ms_q t) (hs_q t) (ms_kt t) (hs_kt t) (ms_k t) (hs_k t) (ms_att t) (hs_att t) (ms_ctx t) (hs_ctx t) accM (Memref.isWhole_whole _) ((hcondFirst t).mpr h0) (notLast_of_first t h0) (iblk m c 0 t) (iblk m c 1 t) (iblk m c 2 t), ctxIdle, accF c (grid0.coords t) (ms_q t) (hs_q t) (ms_kt t) (hs_kt t) (ms_k t) (hs_k t) (ms_att t) (hs_att t) (ms_ctx t) (hs_ctx t) accM (Memref.isWhole_whole _) ((hcondFirst t).mpr h0) (notLast_of_first t h0) (iblk m c 0 t) (iblk m c 1 t) (iblk m c 2 t)) := by
  obtain ⟨n, hn⟩ := t
  cases n with
  | zero => exact rfl
  | succ n => exact (dif_pos h0).trans rfl

theorem outsAt_mid (c : Dev nD) (t : Fin cfg0.N) (h0 : ¬t.val % 8 = 0) (h7 : ¬t.val % 8 = 7) :
    outsAt m c t.val t.isLt = (attM c (grid0.coords t) (ms_q t) (hs_q t) (ms_kt t) (hs_kt t) (ms_k t) (hs_k t) (ms_att t) (hs_att t) (ms_ctx t) (hs_ctx t) accM (Memref.isWhole_whole _) (notFirst t h0) (notLast t h7) (iblk m c 0 t) (iblk m c 1 t) (iblk m c 2 t) (outsAt m c (t.val - 1) (Nat.lt_of_le_of_lt (Nat.sub_le _ _) t.isLt)).2.2, ctxIdle, accMid c (grid0.coords t) (ms_q t) (hs_q t) (ms_kt t) (hs_kt t) (ms_k t) (hs_k t) (ms_att t) (hs_att t) (ms_ctx t) (hs_ctx t) accM (Memref.isWhole_whole _) (notFirst t h0) (notLast t h7) (iblk m c 0 t) (iblk m c 1 t) (iblk m c 2 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h7).trans rfl)

theorem outsAt_last (c : Dev nD) (t : Fin cfg0.N) (h0 : ¬t.val % 8 = 0) (h7 : t.val % 8 = 7) :
    outsAt m c t.val t.isLt = (attL c (grid0.coords t) (ms_q t) (hs_q t) (ms_kt t) (hs_kt t) (ms_k t) (hs_k t) (ms_att t) (hs_att t) (ms_ctx t) (hs_ctx t) accM (Memref.isWhole_whole _) (notFirst t h0) ((hcondLast t).mpr h7) (iblk m c 0 t) (iblk m c 1 t) (iblk m c 2 t) (outsAt m c (t.val - 1) (Nat.lt_of_le_of_lt (Nat.sub_le _ _) t.isLt)).2.2, ctxL c (grid0.coords t) (ms_q t) (hs_q t) (ms_kt t) (hs_kt t) (ms_k t) (hs_k t) (ms_att t) (hs_att t) (ms_ctx t) (hs_ctx t) accM (Memref.isWhole_whole _) (notFirst t h0) ((hcondLast t).mpr h7) (iblk m c 0 t) (iblk m c 1 t) (iblk m c 2 t) (outsAt m c (t.val - 1) (Nat.lt_of_le_of_lt (Nat.sub_le _ _) t.isLt)).2.2, accL c (grid0.coords t) (ms_q t) (hs_q t) (ms_kt t) (hs_kt t) (ms_k t) (hs_k t) (ms_att t) (hs_att t) (ms_ctx t) (hs_ctx t) accM (Memref.isWhole_whole _) (notFirst t h0) ((hcondLast t).mpr h7) (iblk m c 0 t) (iblk m c 1 t) (iblk m c 2 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: the accumulator at what the point before left; before the first point, at anything. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) accM fullShare ((outsAt m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) accM fullShare ((outsAt m c n hn).2.2) := rfl
theorem PhiS_pos (c : Dev nD) (n : ℕ) (h : n ≤ cfg0.N) (hz : n ≠ 0) :
    PhiS m c n h = owns (c : Thread nD τ) accM fullShare ((outsAt m c (n - 1) (by omega)).2.2) := by
  cases n with
  | zero => exact absurd rfl hz
  | succ n => rfl

/-! ## The pipeline's proof data -/

/-- The arrays as the region finds them; after the body each input's buffer at its block, the attention and context
    buffers at `outsAt`; the invariant `PhiS`; nothing owed; the states' buffer shared in halves between the query
    and the key window, every other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
  Φ t := PhiS m c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_q (c : Dev nD) (t : Fin cfg0.N) : (dats m 0 c).after 0 t = iblk m c 0 t := by dsimp only [dats]
theorem after_kt (c : Dev nD) (t : Fin cfg0.N) : (dats m 0 c).after 1 t = iblk m c 1 t := by dsimp only [dats]
theorem after_k (c : Dev nD) (t : Fin cfg0.N) : (dats m 0 c).after 2 t = iblk m c 2 t := by dsimp only [dats]
theorem after_att (c : Dev nD) (t : Fin cfg0.N) : (dats m 0 c).after 3 t = (outsAt m c t.val t.isLt).1 := by dsimp only [dats]
theorem after_ctx (c : Dev nD) (t : Fin cfg0.N) : (dats m 0 c).after 4 t = (outsAt m c t.val t.isLt).2.1 := by dsimp only [dats]

theorem before_q (c : Dev nD) (t : Fin cfg0.N) (d) : (dats m 0 c).before 0 t d = iblk m c 0 t :=
  before_q_of m (dats m 0 c) (A_eq m c 0) (after_q m c) t d
theorem before_kt (c : Dev nD) (t : Fin cfg0.N) (d) : (dats m 0 c).before 1 t d = iblk m c 1 t :=
  before_kt_of m (dats m 0 c) (A_eq m c 1) (after_kt m c) t d
theorem before_k (c : Dev nD) (t : Fin cfg0.N) (d) : (dats m 0 c).before 2 t d = iblk m c 2 t :=
  before_k_of m (dats m 0 c) (A_eq m c 2) (after_k m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_q t) fullShare ((dats m 0 c).before 0 t d))
    ∗ (∃ d, owns (c : Thread nD τ) (ms_kt t) fullShare ((dats m 0 c).before 1 t d))
    ∗ (∃ d, owns (c : Thread nD τ) (ms_k t) fullShare ((dats m 0 c).before 2 t d))
    ∗ (∃ d, owns (c : Thread nD τ) (ms_att t) fullShare ((dats m 0 c).before 3 t d))
    ∗ (∃ d, owns (c : Thread nD τ) (ms_ctx t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms say which case the point is in;
    that case's run applies, the invariant handing it the accumulator and taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_kt, before_k]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms_q t) fullShare ((dats m 0 c).after 0 t) from by
    unfold Dat.leavesExact; rw [live_q t], after_q]
  rw [show (dats m 0 c).leavesExact 1 t = owns (c : Thread nD τ) (ms_kt t) fullShare ((dats m 0 c).after 1 t) from by
    unfold Dat.leavesExact; rw [live_kt t], after_kt]
  rw [show (dats m 0 c).leavesExact 2 t = owns (c : Thread nD τ) (ms_k t) fullShare ((dats m 0 c).after 2 t) from by
    unfold Dat.leavesExact; rw [live_k t], after_k]
  rw [show (dats m 0 c).leavesExact 3 t = owns (c : Thread nD τ) (ms_att t) fullShare ((dats m 0 c).after 3 t) from by
    unfold Dat.leavesExact; rw [live_att t], after_att]
  by_cases h0 : t.val % 8 = 0
  · rw [Dat.leavesExact_idle (dats m 0 c) 4 t (idle_ctx t (notLast_of_first t h0)) (noFlush_ctx t (notLast_of_first t h0))]
    rw [outsAt_first m c t h0]
    unfold attF accF; (try dsimp only)
    by_cases hz : t.val = 0
    · rw [PhiS_castSucc m c t, PhiS_zero m c _ _ hz, scoped_eq]
      iintro ⟨HS, Ho, ⟨%d0, H0⟩, ⟨%d1, H1⟩, ⟨%d2, H2⟩, ⟨%d3, H3⟩, ⟨%d4, H4⟩⟩
      iapply ((runFirst c (grid0.coords t) _ _ _ _ _ _ _ _ _ _ _ _ ((hcondFirst t).mpr h0) (notLast_of_first t h0) (iblk m c 0 t) (iblk m c 1 t) (iblk m c 2 t)).2.2 _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, ⟨%e3, H3⟩, H4, ⟨%es, HS⟩⟩
      isplitl [HS]
      · unfold owns; iexists _; isplitr
        swap; · iexact HS
        ipureintro; exact View.read_writes_of_cover _ _ _ _ _ (coverAccF c _ _ _ _ _ _ _ _ _ _ _ _ _ _ _ _ _ _)
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverAttF c _ _ _ _ _ _ _ _ _ _ _ _ _ _ _ _ _ _)
      iexists _; iexact H4
    · rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runFirst c (grid0.coords t) _ _ _ _ _ _ _ _ _ _ _ _ ((hcondFirst t).mpr h0) (notLast_of_first t h0) (iblk m c 0 t) (iblk m c 1 t) (iblk m c 2 t)).2.2 _ Set.univ _)
      isplitl [H0]; · iexact H0
      isplitl [H1]; · iexact H1
      isplitl [H2]; · iexact H2
      isplitl [H3]; · iexists _; iexact H3
      isplitl [H4]; · iexact H4
      isplitl [HS]; · iexists _; iexact HS
      iintro ⟨H0, H1, H2, ⟨%e3, H3⟩, H4, ⟨%es, HS⟩⟩
      isplitl [HS]
      · unfold owns; iexists _; isplitr
        swap; · iexact HS
        ipureintro; exact View.read_writes_of_cover _ _ _ _ _ (coverAccF c _ _ _ _ _ _ _ _ _ _ _ _ _ _ _ _ _ _)
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverAttF c _ _ _ _ _ _ _ _ _ _ _ _ _ _ _ _ _ _)
      iexists _; iexact H4
  · have hz : t.val ≠ 0 := fun h => h0 (by rw [h])
    by_cases h7 : t.val % 8 = 7
    · rw [show (dats m 0 c).leavesExact 4 t = owns (c : Thread nD τ) (ms_ctx t) fullShare ((dats m 0 c).after 4 t) from by
        unfold Dat.leavesExact; rw [live_ctx t ((hcondLast t).mpr h7)], after_ctx]
      rw [outsAt_last m c t h0 h7]
      unfold attL ctxL accL; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runLast c (grid0.coords t) _ _ _ _ _ _ _ _ _ _ _ _ (notFirst t h0) ((hcondLast t).mpr h7) (iblk m c 0 t) (iblk m c 1 t) (iblk m c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, ⟨%e3, H3⟩, ⟨%e4, H4⟩, ⟨%es, HS⟩⟩
      isplitl [HS]
      · unfold owns; iexists _; isplitr
        swap; · iexact HS
        ipureintro; exact View.read_writes_of_cover _ _ _ _ _ (coverAccL c _ _ _ _ _ _ _ _ _ _ _ _ _ _ _ _ _ _ _)
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverAttL c _ _ _ _ _ _ _ _ _ _ _ _ _ _ _ _ _ _ _)
      unfold owns; iexists _; isplitr
      swap; · iexact H4
      ipureintro; exact View.read_writes_of_cover _ _ _ _ _ (coverCtxL c _ _ _ _ _ _ _ _ _ _ _ _ _ _ _ _ _ _ _)
    · rw [Dat.leavesExact_idle (dats m 0 c) 4 t (idle_ctx t (notLast t h7)) (noFlush_ctx t (notLast t h7))]
      rw [outsAt_mid m c t h0 h7]
      unfold attM accMid; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runMid c (grid0.coords t) _ _ _ _ _ _ _ _ _ _ _ _ (notFirst t h0) (notLast t h7) (iblk m c 0 t) (iblk m c 1 t) (iblk m c 2 t) _).2.2 _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, ⟨%e3, H3⟩, H4, ⟨%es, HS⟩⟩
      isplitl [HS]
      · unfold owns; iexists _; isplitr
        swap; · iexact HS
        ipureintro; exact View.read_writes_of_cover _ _ _ _ _ (coverAccM c _ _ _ _ _ _ _ _ _ _ _ _ _ _ _ _ _ _ _)
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverAttM c _ _ _ _ _ _ _ _ _ _ _ _ _ _ _ _ _ _ _)
      iexists _; iexact H4

/-- The invariant before any position (the proof data's definition projected, never evaluated at a numeral). -/
theorem Phi_eq (c : Dev nD) (t : Fin (cfg0.N + 1)) :
    (dats m 0 c).Φ t = PhiS m c t.val (Nat.le_of_lt_succ t.isLt) := by
  dsimp only [dats]

theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [Phi_eq m c (Fin.last cfg0.N), PhiS_pos m c _ _ (by rw [Fin.val_last]; have : cfg0.N = 256 := N_0; omega), scoped_eq]
  iintro HS
  iexists _; iexact HS

end Cert.Kernel.Fr

end
-- ==== Proof.LibSharedFrame.lean ====
/-
  A pipelined kernel may be handed ONE array through several input windows (the same states read once
  as query rows and once as key rows).  The windows then hold fractional shares of that array's buffer,
  and the launch needs to be told how the buffers behind the arrays, each owned whole, split into the
  windows' shares.  This module states the frame run of such a kernel once, for any program: given that
  split, the body's obligation at every grid point, and an invariant carried from point to point that
  starts from and returns to "the kernel's scratch buffers at some contents", every weakly fair execution
  of the program terminates with each window's array at what the write-backs leave in it and every other
  unscoped buffer as the region found it.  No program is mentioned here.
-/
import Idealize.ShloMosaic.Lib.Pipeline.Frame

noncomputable section

namespace Cert.SharedFrame

open Idealize.ShloMosaic Idealize.ShloMosaic.Pipeline Idealize.ShloMosaic.TcCoe
open Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run of pipeline `p` when its windows may share arrays.  `hsplit` says how the distinct buffers
    behind the arrays, each whole at the region-entry contents `V`, make the windows' shares at entry; `hin` and
    `hout` tie the point-to-point invariant to the scratch buffers held at some contents before the first point and
    after the last.  The kernel may use no semaphore of its own and not the generator register. -/
theorem run (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := Rounds.initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr
      · iempintro
      · iexact HU)
    (hin := fun c => (show _ ⊢ (scopedRest (Ix := Unit) (Name := ℕ) (U := UR sig nD τ) (Lvl := ℕ) (Val := Val) (cfgs p).spec c : sProp 𝕄) by
        iintro ⟨-, HR⟩; iexact HR).trans (hin c))
    (hout := fun c => (hout c).trans (by
        iintro HR
        isplitr
        · iempintro
        · iexact HR))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => h c)

end Cert.SharedFrame

end
-- ==== Proof.KBFrame.lean ====
/-
  The launch of the kernel and its frame.

  The states' buffer is handed to the kernel through two windows, the query rows and the key rows: owning it whole
  is owning its two half shares, one per window; the transposed states and the two results are held whole.  With
  that split, the body's triple at every grid point and the accumulator's invariant, the pipeline's launch theorem
  for windows sharing an array gives the run: every weakly fair execution terminates without a fault, each
  window's array at what the write-backs leave in it.  An input window's array is never written, so the states end
  as they were launched.
-/
import proofs.«112722_j14963666059655_2_alg».proof.Proof.KBFrameBody
import proofs.«112722_j14963666059655_2_alg».proof.Proof.LibSharedFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

set_option maxHeartbeats 3200000 in
/-- The library's body obligation, at every point: its five windows written out are `bodyPre` and `bodyPost`. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  exact sound_body m c t

/-! ## The states' buffer split between its two windows -/

/-- Each window's share of its array: the query and the key window hold the two halves of the states' buffer; the
    transposed states, read by one window, and the two results are held whole. -/
theorem share_q (c : Dev nD) : (dats m 0 c).share 0 = fullShare.left := rfl
theorem share_kt (c : Dev nD) : (dats m 0 c).share 1 = fullShare := rfl
theorem share_k (c : Dev nD) : (dats m 0 c).share 2 = fullShare.right := rfl
theorem share_att (c : Dev nD) : (dats m 0 c).share 3 = fullShare := rfl
theorem share_ctx (c : Dev nD) : (dats m 0 c).share 4 = fullShare := rfl

/-- The windows' arrays at entry, as whole-buffer points-tos at the windows' shares (every array is a whole buffer). -/
theorem arrays_entry (c : Dev nD) :
    (dats m 0 c).arrays ((dats m 0 c).arrAt · 0)
      = bigSep Finset.univ fun w : Fin cfg0.W =>
          ((((c : Thread nD τ).loc (Pipeline.arrRef spec0 w)) ↦{(dats m 0 c).share w} V m c (Pipeline.arrRef spec0 w)) : sProp 𝕄) := by
  unfold Dat.arrays
  exact bigSep_congr fun w _ => by rw [(arr_whole0 w).set_eq_univ]; rfl

/-- The four distinct buffers behind the five windows' arrays, each held whole, give each window its array at its
    share: the states' buffer splits into its two halves. -/
theorem hsplit (c : Dev nD) :
    (Pipeline.arrBufs spec0 c (V m c) : sProp 𝕄) ⊢ (dats m 0 c).arrays ((dats m 0 c).arrAt · 0) := by
  have hfour (Φ : Ref sig .tc → sProp 𝕄) : bigSep (Finset.univ.image (Pipeline.arrRef spec0)) Φ
      = iprop(Φ main_arg0 ∗ Φ main_v0 ∗ Φ main_v1_0 ∗ Φ main_v1_1) :=
    bigSep_eq_bigSepL_of_eq [main_arg0, main_v0, main_v1_0, main_v1_1] (by decide) (by decide) Φ
  rw [arrays_entry]
  unfold Pipeline.arrBufs
  rw [bigSep_W0, hfour, share_q, share_kt, share_k, share_att, share_ctx]
  iintro ⟨Ha, Hv, Ho0, Ho1⟩
  ihave Hh := (pointsTo_share (PosShare.mem_left_op_right fullShare)).1 $$ Ha
  icases Hh with ⟨Hl, Hr⟩
  isplitl [Hl]
  · iexact Hl
  isplitl [Hv]
  · iexact Hv
  isplitl [Hr]
  · iexact Hr
  isplitl [Ho0]
  · iexact Ho0
  iexact Ho1

/-! ## The run and the frame -/

set_option backward.isDefEq.respectTransparency.types false in
/-- Every weakly fair execution terminates, each window's array at what the write-backs leave in it, every other
    unscoped buffer as the region found it. -/
theorem run_main : θ_run defs (onTc (τ := τ) (main (F := F))) (s₀ m ρ) (Pipeline.FramePost cfgs (dats m) 0 (V m)) :=
  Cert.SharedFrame.run cfgs (dats m) (0 : Fin 1) cellOf_inj winFacts₀0 block_pos0 arr_whole0 stage_whole0 defs₀ Variants.none m ρ main
    (hbody := fun c => (body_obligation m c).loose) (howed := fun _ _ => rfl) (V := V m)
    (hmain := hmain m Variants.none) (hsplit := hsplit m) (hin := hin m) (hout := hout m)

/-- The frame: the states end as they were launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) := by
  refine (θ_run defs _ _).mono (fun r h c => ?_) (run_main m ρ)
  have h0 : r.2.mem ((c.tc : Thread nD τ).loc main_arg0) = (dats m 0 c).arrAt 0 cfg0.N := (h c).1 0
  rw [h0, (dats m 0 c).arrAt_in 0 rfl cfg0.N, A_eq]
  exact V_main_arg0 m c

end Cert.Kernel.Fr

end
-- ==== Proof.KIFrameBase.lean ====
/-
  What the three control cases of the kernel body share.

  The grid has 4·8·8 = 256 points, the key-tile coordinate j running fastest, so j = t mod 8.  The body resets
  its accumulator where j = 0, adds the tile's product into it at every point, and copies it to the context
  block where j = 7.  Here: the arrays as the region finds them (the transpose of the states has been written
  by then, the states themselves are untouched), each window's block at a point, the two branch conditions in
  closed form over the grid, at which points the context window is idle, and the staging and scratch buffers
  as the body is handed them.
-/
import proofs.«112722_j14963666059655_2_alg».proof.Proof.Gen.KernelIdeal.Launch
import proofs.«112722_j14963666059655_2_alg».proof.Proof.Gen.KernelIdeal.Skeleton
import proofs.«112722_j14963666059655_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the one host operation (the transpose). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is that host operation and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose writes its own result only: the region finds the states as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's buffer holds its block at every point — it is refetched only when the query tile moves,
    and the body only reads it. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The transposed key window's buffer holds its block at every point. -/
theorem before_kt_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The key window's buffer holds its block at every point. -/
theorem before_k_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, in closed form -/

/-- "This is the first key tile": the body's first branch, from the grid coordinates. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the last key tile": the body's second branch. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live_q : ∀ t : Fin cfg0.N, cfg0.idle 0 (grid0.coords t) = false := by decide +kernel
theorem live_kt : ∀ t : Fin cfg0.N, cfg0.idle 1 (grid0.coords t) = false := by decide +kernel
theorem live_k : ∀ t : Fin cfg0.N, cfg0.idle 2 (grid0.coords t) = false := by decide +kernel
theorem live_att : ∀ t : Fin cfg0.N, cfg0.idle 3 (grid0.coords t) = false := by decide +kernel
/-- Away from the last key tile the body stores nothing into the context window, -/
theorem idle_ctx : ∀ t : Fin cfg0.N, ¬condLast (grid0.coords t) → cfg0.idle 4 (grid0.coords t) = true := by decide +kernel
/-- and the pipeline does not write it back there; -/
theorem noFlush_ctx : ∀ t : Fin cfg0.N, ¬condLast (grid0.coords t) → (cfg0.win 4).flush t = false := by decide +kernel
/-- at the last key tile the body stores the context block. -/
theorem live_ctx : ∀ t : Fin cfg0.N, condLast (grid0.coords t) → cfg0.idle 4 (grid0.coords t) = false := by decide +kernel

/-! ## The buffers the body is handed -/

/-- One staging buffer of each output window, through which its contents are stated (the choice does not matter). -/
abbrev VAtt : View sig .tc .vmem S1x1024x1024 .f32 := (Memref.whole cc0_stg3_0 : Memref sig .tc .vmem S1x1024x1024 .f32).view
abbrev VCtx : View sig .tc .vmem S1x1024x2 .f32 := (Memref.whole cc0_stg4_0 : Memref sig .tc .vmem S1x1024x2 .f32).view
/-- Each window's current staging buffer at point `t`, as the pipeline passes it, and that it is a whole buffer. -/
abbrev ms_q (t : Fin cfg0.N) : Memref sig .tc .vmem S1x1024x2 .f32 := win0_0.stage (cfg0.slots t 0)
abbrev hs_q (t : Fin cfg0.N) : (ms_q t).IsWhole := hstage0_0 ((cfg0.slots t 0).cast nbuf0_0)
abbrev ms_kt (t : Fin cfg0.N) : Memref sig .tc .vmem S1x2x1024 .f32 := win0_1.stage (cfg0.slots t 1)
abbrev hs_kt (t : Fin cfg0.N) : (ms_kt t).IsWhole := hstage0_1 ((cfg0.slots t 1).cast nbuf0_1)
abbrev ms_k (t : Fin cfg0.N) : Memref sig .tc .vmem S1x1024x2 .f32 := win0_2.stage (cfg0.slots t 2)
abbrev hs_k (t : Fin cfg0.N) : (ms_k t).IsWhole := hstage0_2 ((cfg0.slots t 2).cast nbuf0_2)
abbrev ms_att (t : Fin cfg0.N) : Memref sig .tc .vmem S1x1024x1024 .f32 := win0_3.stage (cfg0.slots t 3)
abbrev hs_att (t : Fin cfg0.N) : (ms_att t).IsWhole := hstage0_3 ((cfg0.slots t 3).cast nbuf0_3)
abbrev ms_ctx (t : Fin cfg0.N) : Memref sig .tc .vmem S1x1024x2 .f32 := win0_4.stage (cfg0.slots t 4)
abbrev hs_ctx (t : Fin cfg0.N) : (ms_ctx t).IsWhole := hstage0_4 ((cfg0.slots t 4).cast nbuf0_4)
/-- The accumulator: a whole scoped buffer of the kernel's own, carried from point to point. -/
abbrev accM : Memref sig .tc .vmem S1024x2 .f32 := Memref.whole cc0_scratch0
abbrev VAcc : View sig .tc .vmem S1024x2 .f32 := accM.view

/-- The kernel's scoped buffers other than the staging buffers are the accumulator alone. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) accM fullShare d) := by
  rw [scopedRest0_eq]; simp only [accM, owns_whole]; try rfl

end Cert.KernelIdeal.Fr

end
-- ==== Proof.KIFrameRuns.lean ====
/-
  The kernel body run once per control case, on whatever staging buffers the pipeline hands it.

  In every case the body reads the query block's two columns and the transposed key block's two rows,
  overwrites the whole attention tile, and overwrites the whole accumulator with its old contents (zero on the
  first key tile) plus the tile's product with the key block.  On the first key tile the accumulator's old
  contents are irrelevant; on the last the context block is overwritten with the new accumulator; elsewhere the
  context buffer is left as it was found.  What each buffer ends with is found by running the body: the lists
  of stored pieces are the witnesses.
-/
import proofs.«112722_j14963666059655_2_alg».proof.Proof.KIFrameBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First key tile: the accumulator is handed at anything and reset; the context buffer is handed back untouched. -/
noncomputable def runFirst (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : condFirst i) (hL : ¬condLast i)
    (x0 : Vec F S1x1024x2 .f32) (x1 : Vec F S1x2x1024 .f32) (x2 : Vec F S1x1024x2 .f32) :
    Σ' (L3 : List (View.Piece (Elt F) S1x1024x1024 .f32)), { LS : List (View.Piece (Elt F) S1024x2 .f32) //
      ∀ (xi4 : Vec F S1x1024x2 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__qfa_kernel i arg3 harg3 arg4 harg4 arg5 harg5 arg6 harg6 arg7 harg7 arg8 harg8) K } := by
  refine ⟨?_, ?_, fun xi4 E K => ?run⟩
  case run =>
    simp only [cc0__qfa_kernel_eq_skeleton]; unfold cc0__qfa_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds, %fs, -, HS⟩, Hk⟩
    obtain rfl := harg3.eq_unread hf0; obtain rfl := harg4.eq_unread hf1; obtain rfl := harg5.eq_unread hf2; obtain rfl := harg7.eq_unread hf4
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    iexists _; iexact HS

set_option maxHeartbeats 1000000 in
/-- A middle key tile: the accumulator is handed at what the point before left (`xs`); the context buffer is handed back untouched. -/
noncomputable def runMid (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : ¬condLast i)
    (x0 : Vec F S1x1024x2 .f32) (x1 : Vec F S1x2x1024 .f32) (x2 : Vec F S1x1024x2 .f32) (xs : Vec F S1024x2 .f32) :
    Σ' (L3 : List (View.Piece (Elt F) S1x1024x1024 .f32)), { LS : List (View.Piece (Elt F) S1024x2 .f32) //
      ∀ (xi4 : Vec F S1x1024x2 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ (∃ f, arg8.view.loc (c : Thread nD τ) ↦[arg8.view.set]{fullShare} arg8.view.writes (Elt F) f LS)) -∗ K ⟨⟩))
          ⊢ wp frame (wpE (defs₀ (F := F)) Variants.none c none) E (cc0__qfa_kernel i arg3 harg3 arg4 harg4 arg5 harg5 arg6 harg6 arg7 harg7 arg8 harg8) K } := by
  refine ⟨?_, ?_, fun xi4 E K => ?run⟩
  case run =>
    simp only [cc0__qfa_kernel_eq_skeleton]; unfold cc0__qfa_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
    obtain rfl := harg3.eq_unread hf0; obtain rfl := harg4.eq_unread hf1; obtain rfl := harg5.eq_unread hf2; obtain rfl := harg7.eq_unread hf4; obtain rfl := harg8.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    iexists _; iexact HS

set_option maxHeartbeats 1000000 in
/-- The last key tile: the accumulator is handed at what the point before left; the context buffer, handed at anything, is overwritten. -/
noncomputable def runLast (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i)
    (x0 : Vec F S1x1024x2 .f32) (x1 : Vec F S1x2x1024 .f32) (x2 : Vec F S1x1024x2 .f32) (xs : Vec F S1024x2 .f32) :
    Σ' (L3 : List (View.Piece (Elt F) S1x1024x1024 .f32)), Σ' (L4 : List (View.Piece (Elt F) S1x1024x2 .f32)), { LS : List (View.Piece (Elt F) S1024x2 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc0__qfa_kernel i arg3 harg3 arg4 harg4 arg5 harg5 arg6 harg6 arg7 harg7 arg8 harg8) K } := by
  refine ⟨?_, ?_, ?_, fun E K => ?run⟩
  case run =>
    simp only [cc0__qfa_kernel_eq_skeleton]; unfold cc0__qfa_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
    obtain rfl := harg3.eq_unread hf0; obtain rfl := harg4.eq_unread hf1; obtain rfl := harg5.eq_unread hf2; obtain rfl := harg8.eq_unread hfs
    sl_exec (disch := first | exact hF | exact hL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact HS

end Cert.KernelIdeal.Fr

end
-- ==== Proof.KIFrameBody.lean ====
/-
  The frame of the kernel: every weakly fair execution terminates without a fault, and the states end unchanged.

  What each buffer holds after the body at each grid point is defined by recursion on the point: the attention
  tile and the accumulator are what that point's case of the body leaves (the accumulator of a later key tile
  computed from the one the point before left), the context block is what the last key tile's case leaves.
  The region's invariant before a point is the accumulator at the contents the point before left (anything before
  the very first point).  The states are handed to the kernel through two windows — the query rows and the key
  rows — so each of the two holds one half of the share of that one buffer; the transposed states and the two
  results are held whole.  With that split, the body's triple at every point, and the invariant, the pipeline's
  launch theorem for windows sharing an array gives the run.
-/
import proofs.«112722_j14963666059655_2_alg».proof.Proof.KIFrameRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each buffer: its stored pieces read back, and that they cover the buffer -/

def attF (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : condFirst i) (hL : ¬condLast i) (x0 : Vec F S1x1024x2 .f32) (x1 : Vec F S1x2x1024 .f32) (x2 : Vec F S1x1024x2 .f32) : Vec F S1x1024x1024 .f32 :=
  VAtt.read (Elt F) (VAtt.writes (Elt F) VAtt.junk (runFirst c i arg3 harg3 arg4 harg4 arg5 harg5 arg6 harg6 arg7 harg7 arg8 harg8 hF hL x0 x1 x2).1)
theorem coverAttF (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : condFirst i) (hL : ¬condLast i) (x0 : Vec F S1x1024x2 .f32) (x1 : Vec F S1x2x1024 .f32) (x2 : Vec F S1x1024x2 .f32) (y : S1x1024x1024.Idx) :
    ∃ pc ∈ (runFirst c i arg3 harg3 arg4 harg4 arg5 harg5 arg6 harg6 arg7 harg7 arg8 harg8 hF hL x0 x1 x2).1, y ∈ pc.1.set :=
  View.cover_of_tiledL (runFirst c i arg3 harg3 arg4 harg4 arg5 harg5 arg6 harg6 arg7 harg7 arg8 harg8 hF hL x0 x1 x2).1 S1x1024x1024.size (by sl_kernel_rfl) y
def accF (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : condFirst i) (hL : ¬condLast i) (x0 : Vec F S1x1024x2 .f32) (x1 : Vec F S1x2x1024 .f32) (x2 : Vec F S1x1024x2 .f32) : Vec F S1024x2 .f32 :=
  VAcc.read (Elt F) (VAcc.writes (Elt F) VAcc.junk (runFirst c i arg3 harg3 arg4 harg4 arg5 harg5 arg6 harg6 arg7 harg7 arg8 harg8 hF hL x0 x1 x2).2.1)
theorem coverAccF (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : condFirst i) (hL : ¬condLast i) (x0 : Vec F S1x1024x2 .f32) (x1 : Vec F S1x2x1024 .f32) (x2 : Vec F S1x1024x2 .f32) (y : S1024x2.Idx) :
    ∃ pc ∈ (runFirst c i arg3 harg3 arg4 harg4 arg5 harg5 arg6 harg6 arg7 harg7 arg8 harg8 hF hL x0 x1 x2).2.1, y ∈ pc.1.set :=
  View.cover_of_tiledL (runFirst c i arg3 harg3 arg4 harg4 arg5 harg5 arg6 harg6 arg7 harg7 arg8 harg8 hF hL x0 x1 x2).2.1 S1024x2.size (by sl_kernel_rfl) y

def attM (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : ¬condLast i) (x0 : Vec F S1x1024x2 .f32) (x1 : Vec F S1x2x1024 .f32) (x2 : Vec F S1x1024x2 .f32) (xs : Vec F S1024x2 .f32) : Vec F S1x1024x1024 .f32 :=
  VAtt.read (Elt F) (VAtt.writes (Elt F) VAtt.junk (runMid c i arg3 harg3 arg4 harg4 arg5 harg5 arg6 harg6 arg7 harg7 arg8 harg8 hF hL x0 x1 x2 xs).1)
theorem coverAttM (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : ¬condLast i) (x0 : Vec F S1x1024x2 .f32) (x1 : Vec F S1x2x1024 .f32) (x2 : Vec F S1x1024x2 .f32) (xs : Vec F S1024x2 .f32) (y : S1x1024x1024.Idx) :
    ∃ pc ∈ (runMid c i arg3 harg3 arg4 harg4 arg5 harg5 arg6 harg6 arg7 harg7 arg8 harg8 hF hL x0 x1 x2 xs).1, y ∈ pc.1.set :=
  View.cover_of_tiledL (runMid c i arg3 harg3 arg4 harg4 arg5 harg5 arg6 harg6 arg7 harg7 arg8 harg8 hF hL x0 x1 x2 xs).1 S1x1024x1024.size (by sl_kernel_rfl) y
def accMid (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : ¬condLast i) (x0 : Vec F S1x1024x2 .f32) (x1 : Vec F S1x2x1024 .f32) (x2 : Vec F S1x1024x2 .f32) (xs : Vec F S1024x2 .f32) : Vec F S1024x2 .f32 :=
  VAcc.read (Elt F) (VAcc.writes (Elt F) VAcc.junk (runMid c i arg3 harg3 arg4 harg4 arg5 harg5 arg6 harg6 arg7 harg7 arg8 harg8 hF hL x0 x1 x2 xs).2.1)
theorem coverAccM (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : ¬condLast i) (x0 : Vec F S1x1024x2 .f32) (x1 : Vec F S1x2x1024 .f32) (x2 : Vec F S1x1024x2 .f32) (xs : Vec F S1024x2 .f32) (y : S1024x2.Idx) :
    ∃ pc ∈ (runMid c i arg3 harg3 arg4 harg4 arg5 harg5 arg6 harg6 arg7 harg7 arg8 harg8 hF hL x0 x1 x2 xs).2.1, y ∈ pc.1.set :=
  View.cover_of_tiledL (runMid c i arg3 harg3 arg4 harg4 arg5 harg5 arg6 harg6 arg7 harg7 arg8 harg8 hF hL x0 x1 x2 xs).2.1 S1024x2.size (by sl_kernel_rfl) y

def attL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) : Vec F S1x1024x1024 .f32 :=
  VAtt.read (Elt F) (VAtt.writes (Elt F) VAtt.junk (runLast c i arg3 harg3 arg4 harg4 arg5 harg5 arg6 harg6 arg7 harg7 arg8 harg8 hF hL x0 x1 x2 xs).1)
theorem coverAttL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) (y : S1x1024x1024.Idx) :
    ∃ pc ∈ (runLast c i arg3 harg3 arg4 harg4 arg5 harg5 arg6 harg6 arg7 harg7 arg8 harg8 hF hL x0 x1 x2 xs).1, y ∈ pc.1.set :=
  View.cover_of_tiledL (runLast c i arg3 harg3 arg4 harg4 arg5 harg5 arg6 harg6 arg7 harg7 arg8 harg8 hF hL x0 x1 x2 xs).1 S1x1024x1024.size (by sl_kernel_rfl) y
def ctxL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) : Vec F S1x1024x2 .f32 :=
  VCtx.read (Elt F) (VCtx.writes (Elt F) VCtx.junk (runLast c i arg3 harg3 arg4 harg4 arg5 harg5 arg6 harg6 arg7 harg7 arg8 harg8 hF hL x0 x1 x2 xs).2.1)
theorem coverCtxL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) (y : S1x1024x2.Idx) :
    ∃ pc ∈ (runLast c i arg3 harg3 arg4 harg4 arg5 harg5 arg6 harg6 arg7 harg7 arg8 harg8 hF hL x0 x1 x2 xs).2.1, y ∈ pc.1.set :=
  View.cover_of_tiledL (runLast c i arg3 harg3 arg4 harg4 arg5 harg5 arg6 harg6 arg7 harg7 arg8 harg8 hF hL x0 x1 x2 xs).2.1 S1x1024x2.size (by sl_kernel_rfl) y
def accL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) : Vec F S1024x2 .f32 :=
  VAcc.read (Elt F) (VAcc.writes (Elt F) VAcc.junk (runLast c i arg3 harg3 arg4 harg4 arg5 harg5 arg6 harg6 arg7 harg7 arg8 harg8 hF hL x0 x1 x2 xs).2.2.1)
theorem coverAccL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) (y : S1024x2.Idx) :
    ∃ pc ∈ (runLast c i arg3 harg3 arg4 harg4 arg5 harg5 arg6 harg6 arg7 harg7 arg8 harg8 hF hL x0 x1 x2 xs).2.2.1, y ∈ pc.1.set :=
  View.cover_of_tiledL (runLast c i arg3 harg3 arg4 harg4 arg5 harg5 arg6 harg6 arg7 harg7 arg8 harg8 hF hL x0 x1 x2 xs).2.2.1 S1024x2.size (by sl_kernel_rfl) y

/-- Where the body stores nothing into the context buffer the proof data need a value nobody consults. -/
def ctxIdle : Vec F S1x1024x2 .f32 := VCtx.read (Elt F) VCtx.junk

/-! ## The case a point is in -/

theorem notLast_of_first (t : Fin cfg0.N) (h0 : t.val % 8 = 0) : ¬condLast (grid0.coords t) :=
  fun h => by have := (hcondLast t).mp h; omega
theorem notFirst (t : Fin cfg0.N) (h0 : ¬t.val % 8 = 0) : ¬condFirst (grid0.coords t) := fun h => h0 ((hcondFirst t).mp h)
theorem notLast (t : Fin cfg0.N) (h7 : ¬t.val % 8 = 7) : ¬condLast (grid0.coords t) := fun h => h7 ((hcondLast t).mp h)

/-! ## What the buffers hold after each point -/

/-- After the body at position `n`: the attention tile, the context block, the accumulator. -/
def outsAt (c : Dev nD) : (n : ℕ) → n < cfg0.N → Vec F S1x1024x1024 .f32 × Vec F S1x1024x2 .f32 × Vec F S1024x2 .f32
  | 0, hn => have h0 : (⟨0, hn⟩ : Fin cfg0.N).val % 8 = 0 := Nat.zero_mod _
    (attF c (grid0.coords ⟨0, hn⟩) (ms_q ⟨0, hn⟩) (hs_q ⟨0, hn⟩) (ms_kt ⟨0, hn⟩) (hs_kt ⟨0, hn⟩) (ms_k ⟨0, hn⟩) (hs_k ⟨0, hn⟩) (ms_att ⟨0, hn⟩) (hs_att ⟨0, hn⟩) (ms_ctx ⟨0, hn⟩) (hs_ctx ⟨0, hn⟩) accM (Memref.isWhole_whole _) ((hcondFirst ⟨0, hn⟩).mpr h0) (notLast_of_first ⟨0, hn⟩ h0) (iblk m c 0 ⟨0, hn⟩) (iblk m c 1 ⟨0, hn⟩) (iblk m c 2 ⟨0, hn⟩), ctxIdle, accF c (grid0.coords ⟨0, hn⟩) (ms_q ⟨0, hn⟩) (hs_q ⟨0, hn⟩) (ms_kt ⟨0, hn⟩) (hs_kt ⟨0, hn⟩) (ms_k ⟨0, hn⟩) (hs_k ⟨0, hn⟩) (ms_att ⟨0, hn⟩) (hs_att ⟨0, hn⟩) (ms_ctx ⟨0, hn⟩) (hs_ctx ⟨0, hn⟩) accM (Memref.isWhole_whole _) ((hcondFirst ⟨0, hn⟩).mpr h0) (notLast_of_first ⟨0, hn⟩ h0) (iblk m c 0 ⟨0, hn⟩) (iblk m c 1 ⟨0, hn⟩) (iblk m c 2 ⟨0, hn⟩))
  | n + 1, hn =>
    if h0 : (n + 1) % 8 = 0 then
      (attF c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) ((hcondFirst ⟨n + 1, hn⟩).mpr h0) (notLast_of_first ⟨n + 1, hn⟩ h0) (iblk m c 0 ⟨n + 1, hn⟩) (iblk m c 1 ⟨n + 1, hn⟩) (iblk m c 2 ⟨n + 1, hn⟩), ctxIdle, accF c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) ((hcondFirst ⟨n + 1, hn⟩).mpr h0) (notLast_of_first ⟨n + 1, hn⟩ h0) (iblk m c 0 ⟨n + 1, hn⟩) (iblk m c 1 ⟨n + 1, hn⟩) (iblk m c 2 ⟨n + 1, hn⟩))
    else if h7 : (n + 1) % 8 = 7 then
      (attL c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) (notFirst ⟨n + 1, hn⟩ h0) ((hcondLast ⟨n + 1, hn⟩).mpr h7) (iblk m c 0 ⟨n + 1, hn⟩) (iblk m c 1 ⟨n + 1, hn⟩) (iblk m c 2 ⟨n + 1, hn⟩) (outsAt c n (Nat.lt_of_succ_lt hn)).2.2, ctxL c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) (notFirst ⟨n + 1, hn⟩ h0) ((hcondLast ⟨n + 1, hn⟩).mpr h7) (iblk m c 0 ⟨n + 1, hn⟩) (iblk m c 1 ⟨n + 1, hn⟩) (iblk m c 2 ⟨n + 1, hn⟩) (outsAt c n (Nat.lt_of_succ_lt hn)).2.2, accL c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) (notFirst ⟨n + 1, hn⟩ h0) ((hcondLast ⟨n + 1, hn⟩).mpr h7) (iblk m c 0 ⟨n + 1, hn⟩) (iblk m c 1 ⟨n + 1, hn⟩) (iblk m c 2 ⟨n + 1, hn⟩) (outsAt c n (Nat.lt_of_succ_lt hn)).2.2)
    else
      (attM c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) (notFirst ⟨n + 1, hn⟩ h0) (notLast ⟨n + 1, hn⟩ h7) (iblk m c 0 ⟨n + 1, hn⟩) (iblk m c 1 ⟨n + 1, hn⟩) (iblk m c 2 ⟨n + 1, hn⟩) (outsAt c n (Nat.lt_of_succ_lt hn)).2.2, ctxIdle, accMid c (grid0.coords ⟨n + 1, hn⟩) (ms_q ⟨n + 1, hn⟩) (hs_q ⟨n + 1, hn⟩) (ms_kt ⟨n + 1, hn⟩) (hs_kt ⟨n + 1, hn⟩) (ms_k ⟨n + 1, hn⟩) (hs_k ⟨n + 1, hn⟩) (ms_att ⟨n + 1, hn⟩) (hs_att ⟨n + 1, hn⟩) (ms_ctx ⟨n + 1, hn⟩) (hs_ctx ⟨n + 1, hn⟩) accM (Memref.isWhole_whole _) (notFirst ⟨n + 1, hn⟩ h0) (notLast ⟨n + 1, hn⟩ h7) (iblk m c 0 ⟨n + 1, hn⟩) (iblk m c 1 ⟨n + 1, hn⟩) (iblk m c 2 ⟨n + 1, hn⟩) (outsAt c n (Nat.lt_of_succ_lt hn)).2.2)

theorem outsAt_first (c : Dev nD) (t : Fin cfg0.N) (h0 : t.val % 8 = 0) :
    outsAt m c t.val t.isLt = (attF c (grid0.coords t) (ms_q t) (hs_q t) (ms_kt t) (hs_kt t) (ms_k t) (hs_k t) (ms_att t) (hs_att t) (ms_ctx t) (hs_ctx t) accM (Memref.isWhole_whole _) ((hcondFirst t).mpr h0) (notLast_of_first t h0) (iblk m c 0 t) (iblk m c 1 t) (iblk m c 2 t), ctxIdle, accF c (grid0.coords t) (ms_q t) (hs_q t) (ms_kt t) (hs_kt t) (ms_k t) (hs_k t) (ms_att t) (hs_att t) (ms_ctx t) (hs_ctx t) accM (Memref.isWhole_whole _) ((hcondFirst t).mpr h0) (notLast_of_first t h0) (iblk m c 0 t) (iblk m c 1 t) (iblk m c 2 t)) := by
  obtain ⟨n, hn⟩ := t
  cases n with
  | zero => exact rfl
  | succ n => exact (dif_pos h0).trans rfl

theorem outsAt_mid (c : Dev nD) (t : Fin cfg0.N) (h0 : ¬t.val % 8 = 0) (h7 : ¬t.val % 8 = 7) :
    outsAt m c t.val t.isLt = (attM c (grid0.coords t) (ms_q t) (hs_q t) (ms_kt t) (hs_kt t) (ms_k t) (hs_k t) (ms_att t) (hs_att t) (ms_ctx t) (hs_ctx t) accM (Memref.isWhole_whole _) (notFirst t h0) (notLast t h7) (iblk m c 0 t) (iblk m c 1 t) (iblk m c 2 t) (outsAt m c (t.val - 1) (Nat.lt_of_le_of_lt (Nat.sub_le _ _) t.isLt)).2.2, ctxIdle, accMid c (grid0.coords t) (ms_q t) (hs_q t) (ms_kt t) (hs_kt t) (ms_k t) (hs_k t) (ms_att t) (hs_att t) (ms_ctx t) (hs_ctx t) accM (Memref.isWhole_whole _) (notFirst t h0) (notLast t h7) (iblk m c 0 t) (iblk m c 1 t) (iblk m c 2 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h7).trans rfl)

theorem outsAt_last (c : Dev nD) (t : Fin cfg0.N) (h0 : ¬t.val % 8 = 0) (h7 : t.val % 8 = 7) :
    outsAt m c t.val t.isLt = (attL c (grid0.coords t) (ms_q t) (hs_q t) (ms_kt t) (hs_kt t) (ms_k t) (hs_k t) (ms_att t) (hs_att t) (ms_ctx t) (hs_ctx t) accM (Memref.isWhole_whole _) (notFirst t h0) ((hcondLast t).mpr h7) (iblk m c 0 t) (iblk m c 1 t) (iblk m c 2 t) (outsAt m c (t.val - 1) (Nat.lt_of_le_of_lt (Nat.sub_le _ _) t.isLt)).2.2, ctxL c (grid0.coords t) (ms_q t) (hs_q t) (ms_kt t) (hs_kt t) (ms_k t) (hs_k t) (ms_att t) (hs_att t) (ms_ctx t) (hs_ctx t) accM (Memref.isWhole_whole _) (notFirst t h0) ((hcondLast t).mpr h7) (iblk m c 0 t) (iblk m c 1 t) (iblk m c 2 t) (outsAt m c (t.val - 1) (Nat.lt_of_le_of_lt (Nat.sub_le _ _) t.isLt)).2.2, accL c (grid0.coords t) (ms_q t) (hs_q t) (ms_kt t) (hs_kt t) (ms_k t) (hs_k t) (ms_att t) (hs_att t) (ms_ctx t) (hs_ctx t) accM (Memref.isWhole_whole _) (notFirst t h0) ((hcondLast t).mpr h7) (iblk m c 0 t) (iblk m c 1 t) (iblk m c 2 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h7).trans rfl)

/-! ## The invariant -/

/-- Before position `n`: the accumulator at what the point before left; before the first point, at anything. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) accM fullShare ((outsAt m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) accM fullShare ((outsAt m c n hn).2.2) := rfl
theorem PhiS_pos (c : Dev nD) (n : ℕ) (h : n ≤ cfg0.N) (hz : n ≠ 0) :
    PhiS m c n h = owns (c : Thread nD τ) accM fullShare ((outsAt m c (n - 1) (by omega)).2.2) := by
  cases n with
  | zero => exact absurd rfl hz
  | succ n => rfl

/-! ## The pipeline's proof data -/

/-- The arrays as the region finds them; after the body each input's buffer at its block, the attention and context
    buffers at `outsAt`; the invariant `PhiS`; nothing owed; the states' buffer shared in halves between the query
    and the key window, every other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2.1
  Φ t := PhiS m c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_q (c : Dev nD) (t : Fin cfg0.N) : (dats m 0 c).after 0 t = iblk m c 0 t := by dsimp only [dats]
theorem after_kt (c : Dev nD) (t : Fin cfg0.N) : (dats m 0 c).after 1 t = iblk m c 1 t := by dsimp only [dats]
theorem after_k (c : Dev nD) (t : Fin cfg0.N) : (dats m 0 c).after 2 t = iblk m c 2 t := by dsimp only [dats]
theorem after_att (c : Dev nD) (t : Fin cfg0.N) : (dats m 0 c).after 3 t = (outsAt m c t.val t.isLt).1 := by dsimp only [dats]
theorem after_ctx (c : Dev nD) (t : Fin cfg0.N) : (dats m 0 c).after 4 t = (outsAt m c t.val t.isLt).2.1 := by dsimp only [dats]

theorem before_q (c : Dev nD) (t : Fin cfg0.N) (d) : (dats m 0 c).before 0 t d = iblk m c 0 t :=
  before_q_of m (dats m 0 c) (A_eq m c 0) (after_q m c) t d
theorem before_kt (c : Dev nD) (t : Fin cfg0.N) (d) : (dats m 0 c).before 1 t d = iblk m c 1 t :=
  before_kt_of m (dats m 0 c) (A_eq m c 1) (after_kt m c) t d
theorem before_k (c : Dev nD) (t : Fin cfg0.N) (d) : (dats m 0 c).before 2 t d = iblk m c 2 t :=
  before_k_of m (dats m 0 c) (A_eq m c 2) (after_k m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms_q t) fullShare ((dats m 0 c).before 0 t d))
    ∗ (∃ d, owns (c : Thread nD τ) (ms_kt t) fullShare ((dats m 0 c).before 1 t d))
    ∗ (∃ d, owns (c : Thread nD τ) (ms_k t) fullShare ((dats m 0 c).before 2 t d))
    ∗ (∃ d, owns (c : Thread nD τ) (ms_att t) fullShare ((dats m 0 c).before 3 t d))
    ∗ (∃ d, owns (c : Thread nD τ) (ms_ctx t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms say which case the point is in;
    that case's run applies, the invariant handing it the accumulator and taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_kt, before_k]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  rw [show (dats m 0 c).leavesExact 0 t = owns (c : Thread nD τ) (ms_q t) fullShare ((dats m 0 c).after 0 t) from by
    unfold Dat.leavesExact; rw [live_q t], after_q]
  rw [show (dats m 0 c).leavesExact 1 t = owns (c : Thread nD τ) (ms_kt t) fullShare ((dats m 0 c).after 1 t) from by
    unfold Dat.leavesExact; rw [live_kt t], after_kt]
  rw [show (dats m 0 c).leavesExact 2 t = owns (c : Thread nD τ) (ms_k t) fullShare ((dats m 0 c).after 2 t) from by
    unfold Dat.leavesExact; rw [live_k t], after_k]
  rw [show (dats m 0 c).leavesExact 3 t = owns (c : Thread nD τ) (ms_att t) fullShare ((dats m 0 c).after 3 t) from by
    unfold Dat.leavesExact; rw [live_att t], after_att]
  by_cases h0 : t.val % 8 = 0
  · rw [Dat.leavesExact_idle (dats m 0 c) 4 t (idle_ctx t (notLast_of_first t h0)) (noFlush_ctx t (notLast_of_first t h0))]
    rw [outsAt_first m c t h0]
    unfold attF accF; (try dsimp only)
    by_cases hz : t.val = 0
    · rw [PhiS_castSucc m c t, PhiS_zero m c _ _ hz, scoped_eq]
      iintro ⟨HS, Ho, ⟨%d0, H0⟩, ⟨%d1, H1⟩, ⟨%d2, H2⟩, ⟨%d3, H3⟩, ⟨%d4, H4⟩⟩
      iapply ((runFirst c (grid0.coords t) _ _ _ _ _ _ _ _ _ _ _ _ ((hcondFirst t).mpr h0) (notLast_of_first t h0) (iblk m c 0 t) (iblk m c 1 t) (iblk m c 2 t)).2.2 _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, ⟨%e3, H3⟩, H4, ⟨%es, HS⟩⟩
      isplitl [HS]
      · unfold owns; iexists _; isplitr
        swap; · iexact HS
        ipureintro; exact View.read_writes_of_cover _ _ _ _ _ (coverAccF c _ _ _ _ _ _ _ _ _ _ _ _ _ _ _ _ _ _)
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverAttF c _ _ _ _ _ _ _ _ _ _ _ _ _ _ _ _ _ _)
      iexists _; iexact H4
    · rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runFirst c (grid0.coords t) _ _ _ _ _ _ _ _ _ _ _ _ ((hcondFirst t).mpr h0) (notLast_of_first t h0) (iblk m c 0 t) (iblk m c 1 t) (iblk m c 2 t)).2.2 _ Set.univ _)
      isplitl [H0]; · iexact H0
      isplitl [H1]; · iexact H1
      isplitl [H2]; · iexact H2
      isplitl [H3]; · iexists _; iexact H3
      isplitl [H4]; · iexact H4
      isplitl [HS]; · iexists _; iexact HS
      iintro ⟨H0, H1, H2, ⟨%e3, H3⟩, H4, ⟨%es, HS⟩⟩
      isplitl [HS]
      · unfold owns; iexists _; isplitr
        swap; · iexact HS
        ipureintro; exact View.read_writes_of_cover _ _ _ _ _ (coverAccF c _ _ _ _ _ _ _ _ _ _ _ _ _ _ _ _ _ _)
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverAttF c _ _ _ _ _ _ _ _ _ _ _ _ _ _ _ _ _ _)
      iexists _; iexact H4
  · have hz : t.val ≠ 0 := fun h => h0 (by rw [h])
    by_cases h7 : t.val % 8 = 7
    · rw [show (dats m 0 c).leavesExact 4 t = owns (c : Thread nD τ) (ms_ctx t) fullShare ((dats m 0 c).after 4 t) from by
        unfold Dat.leavesExact; rw [live_ctx t ((hcondLast t).mpr h7)], after_ctx]
      rw [outsAt_last m c t h0 h7]
      unfold attL ctxL accL; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runLast c (grid0.coords t) _ _ _ _ _ _ _ _ _ _ _ _ (notFirst t h0) ((hcondLast t).mpr h7) (iblk m c 0 t) (iblk m c 1 t) (iblk m c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, ⟨%e3, H3⟩, ⟨%e4, H4⟩, ⟨%es, HS⟩⟩
      isplitl [HS]
      · unfold owns; iexists _; isplitr
        swap; · iexact HS
        ipureintro; exact View.read_writes_of_cover _ _ _ _ _ (coverAccL c _ _ _ _ _ _ _ _ _ _ _ _ _ _ _ _ _ _ _)
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverAttL c _ _ _ _ _ _ _ _ _ _ _ _ _ _ _ _ _ _ _)
      unfold owns; iexists _; isplitr
      swap; · iexact H4
      ipureintro; exact View.read_writes_of_cover _ _ _ _ _ (coverCtxL c _ _ _ _ _ _ _ _ _ _ _ _ _ _ _ _ _ _ _)
    · rw [Dat.leavesExact_idle (dats m 0 c) 4 t (idle_ctx t (notLast t h7)) (noFlush_ctx t (notLast t h7))]
      rw [outsAt_mid m c t h0 h7]
      unfold attM accMid; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((runMid c (grid0.coords t) _ _ _ _ _ _ _ _ _ _ _ _ (notFirst t h0) (notLast t h7) (iblk m c 0 t) (iblk m c 1 t) (iblk m c 2 t) _).2.2 _ Set.univ _)
      isplitl [H0]; · iexact H0
      isplitl [H1]; · iexact H1
      isplitl [H2]; · iexact H2
      isplitl [H3]; · iexists _; iexact H3
      isplitl [H4]; · iexact H4
      isplitl [HS]; · iexact HS
      iintro ⟨H0, H1, H2, ⟨%e3, H3⟩, H4, ⟨%es, HS⟩⟩
      isplitl [HS]
      · unfold owns; iexists _; isplitr
        swap; · iexact HS
        ipureintro; exact View.read_writes_of_cover _ _ _ _ _ (coverAccM c _ _ _ _ _ _ _ _ _ _ _ _ _ _ _ _ _ _ _)
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverAttM c _ _ _ _ _ _ _ _ _ _ _ _ _ _ _ _ _ _ _)
      iexists _; iexact H4

/-- The invariant before any position (the proof data's definition projected, never evaluated at a numeral). -/
theorem Phi_eq (c : Dev nD) (t : Fin (cfg0.N + 1)) :
    (dats m 0 c).Φ t = PhiS m c t.val (Nat.le_of_lt_succ t.isLt) := by
  dsimp only [dats]

theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [Phi_eq m c (Fin.last cfg0.N), PhiS_pos m c _ _ (by rw [Fin.val_last]; have : cfg0.N = 256 := N_0; omega), scoped_eq]
  iintro HS
  iexists _; iexact HS

end Cert.KernelIdeal.Fr

end
-- ==== Proof.KIFrame.lean ====
/-
  The launch of the kernel and its frame.

  The states' buffer is handed to the kernel through two windows, the query rows and the key rows: owning it whole
  is owning its two half shares, one per window; the transposed states and the two results are held whole.  With
  that split, the body's triple at every grid point and the accumulator's invariant, the pipeline's launch theorem
  for windows sharing an array gives the run: every weakly fair execution terminates without a fault, each
  window's array at what the write-backs leave in it.  An input window's array is never written, so the states end
  as they were launched.
-/
import proofs.«112722_j14963666059655_2_alg».proof.Proof.KIFrameBody
import proofs.«112722_j14963666059655_2_alg».proof.Proof.LibSharedFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

set_option maxHeartbeats 3200000 in
/-- The library's body obligation, at every point: its five windows written out are `bodyPre` and `bodyPost`. -/
theorem body_obligation (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt0 t) (fun _ => bodyPost m c t)
  exact sound_body m c t

/-! ## The states' buffer split between its two windows -/

/-- Each window's share of its array: the query and the key window hold the two halves of the states' buffer; the
    transposed states, read by one window, and the two results are held whole. -/
theorem share_q (c : Dev nD) : (dats m 0 c).share 0 = fullShare.left := rfl
theorem share_kt (c : Dev nD) : (dats m 0 c).share 1 = fullShare := rfl
theorem share_k (c : Dev nD) : (dats m 0 c).share 2 = fullShare.right := rfl
theorem share_att (c : Dev nD) : (dats m 0 c).share 3 = fullShare := rfl
theorem share_ctx (c : Dev nD) : (dats m 0 c).share 4 = fullShare := rfl

/-- The windows' arrays at entry, as whole-buffer points-tos at the windows' shares (every array is a whole buffer). -/
theorem arrays_entry (c : Dev nD) :
    (dats m 0 c).arrays ((dats m 0 c).arrAt · 0)
      = bigSep Finset.univ fun w : Fin cfg0.W =>
          ((((c : Thread nD τ).loc (Pipeline.arrRef spec0 w)) ↦{(dats m 0 c).share w} V m c (Pipeline.arrRef spec0 w)) : sProp 𝕄) := by
  unfold Dat.arrays
  exact bigSep_congr fun w _ => by rw [(arr_whole0 w).set_eq_univ]; rfl

/-- The four distinct buffers behind the five windows' arrays, each held whole, give each window its array at its
    share: the states' buffer splits into its two halves. -/
theorem hsplit (c : Dev nD) :
    (Pipeline.arrBufs spec0 c (V m c) : sProp 𝕄) ⊢ (dats m 0 c).arrays ((dats m 0 c).arrAt · 0) := by
  have hfour (Φ : Ref sig .tc → sProp 𝕄) : bigSep (Finset.univ.image (Pipeline.arrRef spec0)) Φ
      = iprop(Φ main_arg0 ∗ Φ main_v0 ∗ Φ main_v1_0 ∗ Φ main_v1_1) :=
    bigSep_eq_bigSepL_of_eq [main_arg0, main_v0, main_v1_0, main_v1_1] (by decide) (by decide) Φ
  rw [arrays_entry]
  unfold Pipeline.arrBufs
  rw [bigSep_W0, hfour, share_q, share_kt, share_k, share_att, share_ctx]
  iintro ⟨Ha, Hv, Ho0, Ho1⟩
  ihave Hh := (pointsTo_share (PosShare.mem_left_op_right fullShare)).1 $$ Ha
  icases Hh with ⟨Hl, Hr⟩
  isplitl [Hl]
  · iexact Hl
  isplitl [Hv]
  · iexact Hv
  isplitl [Hr]
  · iexact Hr
  isplitl [Ho0]
  · iexact Ho0
  iexact Ho1

/-! ## The run and the frame -/

set_option backward.isDefEq.respectTransparency.types false in
/-- Every weakly fair execution terminates, each window's array at what the write-backs leave in it, every other
    unscoped buffer as the region found it. -/
theorem run_main : θ_run defs (onTc (τ := τ) (main (F := F))) (s₀ m ρ) (Pipeline.FramePost cfgs (dats m) 0 (V m)) :=
  Cert.SharedFrame.run cfgs (dats m) (0 : Fin 1) cellOf_inj winFacts₀0 block_pos0 arr_whole0 stage_whole0 defs₀ Variants.none m ρ main
    (hbody := fun c => (body_obligation m c).loose) (howed := fun _ _ => rfl) (V := V m)
    (hmain := hmain m Variants.none) (hsplit := hsplit m) (hin := hin m) (hout := hout m)

/-- The frame: the states end as they were launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) := by
  refine (θ_run defs _ _).mono (fun r h c => ?_) (run_main m ρ)
  have h0 : r.2.mem ((c.tc : Thread nD τ).loc main_arg0) = (dats m 0 c).arrAt 0 cfg0.N := (h c).1 0
  rw [h0, (dats m 0 c).arrAt_in 0 rfl cfg0.N, A_eq]
  exact V_main_arg0 m c

end Cert.KernelIdeal.Fr

end
-- ==== Proof.KIPieces.lean ====
/-
  What the kernel body leaves in its buffers, as values.

  Running the body found, for each control case, the list of pieces each buffer ends with.  Read back, each is one
  covering store's payload: the attention tile is the gated weight of every (query row, key column) pair of the
  two blocks; the accumulator is its old contents (the zero block on the first key tile) plus the product of the
  tile's weights with the key block; the context block, on the last key tile, is the new accumulator.  So the
  accumulator after a grid position has a closed form by recursion on the position, and the three buffers after
  each position are stated through it.
-/
import proofs.«112722_j14963666059655_2_alg».proof.Proof.KIFrameBody
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The payloads, over the blocks -/

/-- The query block's x and y columns, and the transposed key block's x and y rows, as the body loads them. -/
def qx (x0 : Vec F S1x1024x2 .f32) : Vec F S1x1024x1 .f32 :=
  View.ld x0 (Rect.unit (s := S1x1024x2) ![0, 0, 0] S1x1024x1.size inb_S1x1024x2_S1x1024x1_0_0_0)
def qy (x0 : Vec F S1x1024x2 .f32) : Vec F S1x1024x1 .f32 :=
  View.ld x0 (Rect.unit (s := S1x1024x2) ![0, 0, 1] S1x1024x1.size inb_S1x1024x2_S1x1024x1_0_0_1)
def kx (x1 : Vec F S1x2x1024 .f32) : Vec F S1x1x1024 .f32 :=
  View.ld x1 (Rect.unit (s := S1x2x1024) ![0, 0, 0] S1x1x1024.size inb_S1x2x1024_S1x1x1024_0_0_0)
def ky (x1 : Vec F S1x2x1024 .f32) : Vec F S1x1x1024 .f32 :=
  View.ld x1 (Rect.unit (s := S1x2x1024) ![0, 1, 0] S1x1x1024.size inb_S1x2x1024_S1x1x1024_0_1_0)

/-- The attention tile of a query block and a transposed key block. -/
def tileVal (x0 : Vec F S1x1024x2 .f32) (x1 : Vec F S1x2x1024 .f32) : Vec F S1x1024x1024 .f32 :=
  k0_pay2 (k0_pay8 (qx x0) (qy x0) (kx x1) (ky x1)) (k0_pay9 (qx x0) (qy x0) (kx x1) (ky x1)) k0_pay10

/-- The accumulator after a key tile: its old contents plus the tile's weights times the key block. -/
def accVal (x0 : Vec F S1x1024x2 .f32) (x1 : Vec F S1x2x1024 .f32) (x2 : Vec F S1x1024x2 .f32) (old : Vec F S1024x2 .f32) : Vec F S1024x2 .f32 :=
  k0_pay3 (k0_pay8 (qx x0) (qy x0) (kx x1) (ky x1)) (k0_pay9 (qx x0) (qy x0) (kx x1) (ky x1)) k0_pay10 old x2

/-! ## Each case's found pieces, read back -/

theorem attF_eq (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : condFirst i) (hL : ¬condLast i) (x0 : Vec F S1x1024x2 .f32) (x1 : Vec F S1x2x1024 .f32) (x2 : Vec F S1x1024x2 .f32) :
    attF c i arg3 harg3 arg4 harg4 arg5 harg5 arg6 harg6 arg7 harg7 arg8 harg8 hF hL x0 x1 x2 = tileVal x0 x1 := by
  unfold attF
  rw [View.read_writes_eq_canon _ _ _ (coverAttF c i arg3 harg3 arg4 harg4 arg5 harg5 arg6 harg6 arg7 harg7 arg8 harg8 hF hL x0 x1 x2)]
  unfold runFirst
  dsimp only
  sl_unfold_words
  rw [View.canon_unit_zero (S := S1x1024x1024) hz3]
  simp only [View.readAt_eq_ld, harg3.read_unread, harg4.read_unread]
  rfl

theorem accF_eq (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : condFirst i) (hL : ¬condLast i) (x0 : Vec F S1x1024x2 .f32) (x1 : Vec F S1x2x1024 .f32) (x2 : Vec F S1x1024x2 .f32) :
    accF c i arg3 harg3 arg4 harg4 arg5 harg5 arg6 harg6 arg7 harg7 arg8 harg8 hF hL x0 x1 x2 = accVal x0 x1 x2 k0_pay5 := by
  unfold accF
  rw [View.read_writes_eq_canon _ _ _ (coverAccF c i arg3 harg3 arg4 harg4 arg5 harg5 arg6 harg6 arg7 harg7 arg8 harg8 hF hL x0 x1 x2)]
  unfold runFirst
  dsimp only
  sl_unfold_words
  rw [View.canon_cons_unit_zero (S := S1024x2) hz2, View.readCov_unit_zero (S := S1024x2) _ hz2]
  simp only [View.readAt_eq_ld, harg3.read_unread, harg4.read_unread, harg5.read_unread, View.ld_unit_zero (S := S1x1024x2) hz3]
  rfl

theorem attM_eq (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : ¬condLast i) (x0 : Vec F S1x1024x2 .f32) (x1 : Vec F S1x2x1024 .f32) (x2 : Vec F S1x1024x2 .f32) (xs : Vec F S1024x2 .f32) :
    attM c i arg3 harg3 arg4 harg4 arg5 harg5 arg6 harg6 arg7 harg7 arg8 harg8 hF hL x0 x1 x2 xs = tileVal x0 x1 := by
  unfold attM
  rw [View.read_writes_eq_canon _ _ _ (coverAttM c i arg3 harg3 arg4 harg4 arg5 harg5 arg6 harg6 arg7 harg7 arg8 harg8 hF hL x0 x1 x2 xs)]
  unfold runMid
  dsimp only
  sl_unfold_words
  rw [View.canon_unit_zero (S := S1x1024x1024) hz3]
  simp only [View.readAt_eq_ld, harg3.read_unread, harg4.read_unread]
  rfl

theorem accMid_eq (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : ¬condLast i) (x0 : Vec F S1x1024x2 .f32) (x1 : Vec F S1x2x1024 .f32) (x2 : Vec F S1x1024x2 .f32) (xs : Vec F S1024x2 .f32) :
    accMid c i arg3 harg3 arg4 harg4 arg5 harg5 arg6 harg6 arg7 harg7 arg8 harg8 hF hL x0 x1 x2 xs = accVal x0 x1 x2 xs := by
  unfold accMid
  rw [View.read_writes_eq_canon _ _ _ (coverAccM c i arg3 harg3 arg4 harg4 arg5 harg5 arg6 harg6 arg7 harg7 arg8 harg8 hF hL x0 x1 x2 xs)]
  unfold runMid
  dsimp only
  sl_unfold_words
  rw [View.canon_unit_zero (S := S1024x2) hz2]
  simp only [View.readAt_eq_ld, harg3.read_unread, harg4.read_unread, harg5.read_unread, harg8.read_unread,
    View.ld_unit_zero (S := S1x1024x2) hz3, View.ld_unit_zero (S := S1024x2) hz2]
  rfl

theorem attL_eq (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) :
    attL c i arg3 harg3 arg4 harg4 arg5 harg5 arg6 harg6 arg7 harg7 arg8 harg8 hF hL x0 x1 x2 xs = tileVal x0 x1 := by
  unfold attL
  rw [View.read_writes_eq_canon _ _ _ (coverAttL c i arg3 harg3 arg4 harg4 arg5 harg5 arg6 harg6 arg7 harg7 arg8 harg8 hF hL x0 x1 x2 xs)]
  unfold runLast
  dsimp only
  sl_unfold_words
  rw [View.canon_unit_zero (S := S1x1024x1024) hz3]
  simp only [View.readAt_eq_ld, harg3.read_unread, harg4.read_unread]
  rfl

theorem accL_eq (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) :
    accL c i arg3 harg3 arg4 harg4 arg5 harg5 arg6 harg6 arg7 harg7 arg8 harg8 hF hL x0 x1 x2 xs = accVal x0 x1 x2 xs := by
  unfold accL
  rw [View.read_writes_eq_canon _ _ _ (coverAccL c i arg3 harg3 arg4 harg4 arg5 harg5 arg6 harg6 arg7 harg7 arg8 harg8 hF hL x0 x1 x2 xs)]
  unfold runLast
  dsimp only
  sl_unfold_words
  rw [View.canon_unit_zero (S := S1024x2) hz2]
  simp only [View.readAt_eq_ld, harg3.read_unread, harg4.read_unread, harg5.read_unread, harg8.read_unread,
    View.ld_unit_zero (S := S1x1024x2) hz3, View.ld_unit_zero (S := S1024x2) hz2]
  rfl

theorem ctxL_eq (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1024x2 .f32) (harg5 : arg5.IsWhole) (arg6 : Memref sig .tc .vmem S1x1024x1024 .f32) (harg6 : arg6.IsWhole) (arg7 : Memref sig .tc .vmem S1x1024x2 .f32) (harg7 : arg7.IsWhole) (arg8 : Memref sig .tc .vmem S1024x2 .f32) (harg8 : arg8.IsWhole) (hF : ¬condFirst i) (hL : condLast i) (x0 : Vec F S1x1024x2 .f32) (x1 : Vec F S1x2x1024 .f32) (x2 : Vec F S1x1024x2 .f32) (xs : Vec F S1024x2 .f32) :
    ctxL c i arg3 harg3 arg4 harg4 arg5 harg5 arg6 harg6 arg7 harg7 arg8 harg8 hF hL x0 x1 x2 xs = k0_pay4 (accVal x0 x1 x2 xs) := by
  unfold ctxL
  rw [View.read_writes_eq_canon _ _ _ (coverCtxL c i arg3 harg3 arg4 harg4 arg5 harg5 arg6 harg6 arg7 harg7 arg8 harg8 hF hL x0 x1 x2 xs)]
  unfold runLast
  dsimp only
  sl_unfold_words
  rw [View.canon_unit_zero (S := S1x1024x2) hz3, View.readCov_unit_zero (S := S1024x2) _ hz2]
  simp only [View.readAt_eq_ld, harg3.read_unread, harg4.read_unread, harg5.read_unread, harg8.read_unread,
    View.ld_unit_zero (S := S1x1024x2) hz3, View.ld_unit_zero (S := S1024x2) hz2]
  rfl

/-! ## The buffers after each position, in closed form -/

/-- The accumulator after position `n`: from the zero block on a first key tile, else from the position before. -/
def accAt (c : Dev nD) : (n : ℕ) → n < cfg0.N → Vec F S1024x2 .f32
  | 0, h => accVal (iblk m c 0 ⟨0, h⟩) (iblk m c 1 ⟨0, h⟩) (iblk m c 2 ⟨0, h⟩) k0_pay5
  | n + 1, h =>
    if (n + 1) % 8 = 0 then accVal (iblk m c 0 ⟨n + 1, h⟩) (iblk m c 1 ⟨n + 1, h⟩) (iblk m c 2 ⟨n + 1, h⟩) k0_pay5
    else accVal (iblk m c 0 ⟨n + 1, h⟩) (iblk m c 1 ⟨n + 1, h⟩) (iblk m c 2 ⟨n + 1, h⟩) (accAt c n (Nat.lt_of_succ_lt h))

theorem accAt_first (c : Dev nD) (t : Fin cfg0.N) (h0 : t.val % 8 = 0) :
    accAt m c t.val t.isLt = accVal (iblk m c 0 t) (iblk m c 1 t) (iblk m c 2 t) k0_pay5 := by
  obtain ⟨n, hn⟩ := t
  cases n with
  | zero => rfl
  | succ n => exact if_pos h0

theorem accAt_later (c : Dev nD) (t : Fin cfg0.N) (h0 : ¬t.val % 8 = 0) :
    accAt m c t.val t.isLt = accVal (iblk m c 0 t) (iblk m c 1 t) (iblk m c 2 t)
      (accAt m c (t.val - 1) (Nat.lt_of_le_of_lt (Nat.sub_le _ _) t.isLt)) := by
  obtain ⟨n, hn⟩ := t
  cases n with
  | zero => exact absurd (Nat.zero_mod _) h0
  | succ n => exact if_neg h0

/-- On a first key tile the accumulator left is the tile's product with the key block, from zero; -/
theorem outsAt_acc_first (c : Dev nD) (t : Fin cfg0.N) (h0 : t.val % 8 = 0) :
    (outsAt m c t.val t.isLt).2.2 = accVal (iblk m c 0 t) (iblk m c 1 t) (iblk m c 2 t) k0_pay5 := by
  rw [outsAt_first m c t h0]
  dsimp only
  exact accF_eq c (grid0.coords t) (ms_q t) (hs_q t) (ms_kt t) (hs_kt t) (ms_k t) (hs_k t) (ms_att t) (hs_att t) (ms_ctx t) (hs_ctx t) accM (Memref.isWhole_whole _) ((hcondFirst t).mpr h0) (notLast_of_first t h0) (iblk m c 0 t) (iblk m c 1 t) (iblk m c 2 t)

/-- on a later one it is the accumulator the position before left, plus the tile's product with the key block. -/
theorem outsAt_acc_later (c : Dev nD) (t : Fin cfg0.N) (h0 : ¬t.val % 8 = 0) :
    (outsAt m c t.val t.isLt).2.2 = accVal (iblk m c 0 t) (iblk m c 1 t) (iblk m c 2 t) (outsAt m c (t.val - 1) (Nat.lt_of_le_of_lt (Nat.sub_le _ _) t.isLt)).2.2 := by
  by_cases h7 : t.val % 8 = 7
  · rw [outsAt_last m c t h0 h7]
    dsimp only
    exact accL_eq c (grid0.coords t) (ms_q t) (hs_q t) (ms_kt t) (hs_kt t) (ms_k t) (hs_k t) (ms_att t) (hs_att t) (ms_ctx t) (hs_ctx t) accM (Memref.isWhole_whole _) (notFirst t h0) ((hcondLast t).mpr h7) (iblk m c 0 t) (iblk m c 1 t) (iblk m c 2 t) (outsAt m c (t.val - 1) (Nat.lt_of_le_of_lt (Nat.sub_le _ _) t.isLt)).2.2
  · rw [outsAt_mid m c t h0 h7]
    dsimp only
    exact accMid_eq c (grid0.coords t) (ms_q t) (hs_q t) (ms_kt t) (hs_kt t) (ms_k t) (hs_k t) (ms_att t) (hs_att t) (ms_ctx t) (hs_ctx t) accM (Memref.isWhole_whole _) (notFirst t h0) (notLast t h7) (iblk m c 0 t) (iblk m c 1 t) (iblk m c 2 t) (outsAt m c (t.val - 1) (Nat.lt_of_le_of_lt (Nat.sub_le _ _) t.isLt)).2.2

/-- The accumulator component of what the buffers hold after a position is the closed form, -/
theorem outsAt_acc (c : Dev nD) : ∀ (n : ℕ) (h : n < cfg0.N), (outsAt m c n h).2.2 = accAt m c n h
  | 0, h => (outsAt_acc_first m c ⟨0, h⟩ (Nat.zero_mod _)).trans (accAt_first m c ⟨0, h⟩ (Nat.zero_mod _)).symm
  | n + 1, h => by
    by_cases h0 : (n + 1) % 8 = 0
    · exact (outsAt_acc_first m c ⟨n + 1, h⟩ h0).trans (accAt_first m c ⟨n + 1, h⟩ h0).symm
    · refine (outsAt_acc_later m c ⟨n + 1, h⟩ h0).trans ?_
      rw [accAt_later m c ⟨n + 1, h⟩ h0]
      show accVal _ _ _ (outsAt m c n _).2.2 = accVal _ _ _ (accAt m c n _)
      rw [outsAt_acc c n]

/-- the attention tile is the tile of that position's blocks, -/
theorem outsAt_att (c : Dev nD) (t : Fin cfg0.N) :
    (outsAt m c t.val t.isLt).1 = tileVal (iblk m c 0 t) (iblk m c 1 t) := by
  by_cases h0 : t.val % 8 = 0
  · rw [outsAt_first m c t h0]
    dsimp only
    exact attF_eq c (grid0.coords t) (ms_q t) (hs_q t) (ms_kt t) (hs_kt t) (ms_k t) (hs_k t) (ms_att t) (hs_att t) (ms_ctx t) (hs_ctx t) accM (Memref.isWhole_whole _) ((hcondFirst t).mpr h0) (notLast_of_first t h0) (iblk m c 0 t) (iblk m c 1 t) (iblk m c 2 t)
  · by_cases h7 : t.val % 8 = 7
    · rw [outsAt_last m c t h0 h7]
      dsimp only
      exact attL_eq c (grid0.coords t) (ms_q t) (hs_q t) (ms_kt t) (hs_kt t) (ms_k t) (hs_k t) (ms_att t) (hs_att t) (ms_ctx t) (hs_ctx t) accM (Memref.isWhole_whole _) (notFirst t h0) ((hcondLast t).mpr h7) (iblk m c 0 t) (iblk m c 1 t) (iblk m c 2 t) (outsAt m c (t.val - 1) (Nat.lt_of_le_of_lt (Nat.sub_le _ _) t.isLt)).2.2
    · rw [outsAt_mid m c t h0 h7]
      dsimp only
      exact attM_eq c (grid0.coords t) (ms_q t) (hs_q t) (ms_kt t) (hs_kt t) (ms_k t) (hs_k t) (ms_att t) (hs_att t) (ms_ctx t) (hs_ctx t) accM (Memref.isWhole_whole _) (notFirst t h0) (notLast t h7) (iblk m c 0 t) (iblk m c 1 t) (iblk m c 2 t) (outsAt m c (t.val - 1) (Nat.lt_of_le_of_lt (Nat.sub_le _ _) t.isLt)).2.2

/-- and on a last key tile the context block is that position's accumulator. -/
theorem outsAt_ctx (c : Dev nD) (t : Fin cfg0.N) (h7 : t.val % 8 = 7) :
    (outsAt m c t.val t.isLt).2.1 = k0_pay4 (accAt m c t.val t.isLt) := by
  have h0 : ¬t.val % 8 = 0 := by omega
  rw [outsAt_last m c t h0 h7]
  dsimp only
  refine (ctxL_eq c (grid0.coords t) (ms_q t) (hs_q t) (ms_kt t) (hs_kt t) (ms_k t) (hs_k t) (ms_att t) (hs_att t) (ms_ctx t) (hs_ctx t) accM (Memref.isWhole_whole _) (notFirst t h0) ((hcondLast t).mpr h7) (iblk m c 0 t) (iblk m c 1 t) (iblk m c 2 t) (outsAt m c (t.val - 1) (Nat.lt_of_le_of_lt (Nat.sub_le _ _) t.isLt)).2.2).trans ?_
  rw [accAt_later m c t h0, outsAt_acc m c (t.val - 1)]

end Cert.KernelIdeal.Fr

end
-- ==== Proof.KIBlocks.lean ====
/-
  The geometry of the five windows over the grid.

  The grid has 4·8·8 = 256 points, the last coordinate fastest: point t is batch t / 64, query tile (t / 8) mod 8,
  key tile t mod 8.  A tile is 1024 consecutive rows of the 8192.  The query window and the context window hold the
  query tile's rows of the states and of the context, the key window the key tile's rows of the states, the
  transposed key window the same rows as columns of the transposed states, and the attention window the square of
  query rows by key rows.  An element of a block sits in its array, on every axis, at block index times block
  extent plus its coordinate inside the block.  Here: the block indices as functions of t, where each block's
  elements sit, what the three input blocks hold in terms of the states as launched (the transposed one through
  the transposition), and that the written-back blocks of the two results cover them — entry (b, r, s) of the
  attention lies in the block of point 64·b + 8·(r / 1024) + s / 1024, and entry (b, r, k) of the context in the
  block of point 64·b + 8·(r / 1024) + 7, the last key tile, where the context is written back.
-/
import proofs.«112722_j14963666059655_2_alg».proof.Proof.KIFrameBase
import Idealize.ShloMosaic.Lib.Pipeline.Value
import Idealize.ShloMosaic.Lib.ValueIdx
import Idealize.ShloMosaic.Lib.StableHlo.Run

set_option maxRecDepth 16384

noncomputable section

namespace Cert.KernelIdeal.Blk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A grid point's batch, query rows and key rows -/

/-- The batch of grid point t: t / 64. -/
def bt (t : Fin cfg0.N) : Fin 4 := ⟨t.val / 64, by have := t.isLt; have hN : cfg0.N = 256 := N_0; omega⟩
/-- Row p of grid point t's query tile: 1024 · ((t / 8) mod 8) + p. -/
def qrow (t : Fin cfg0.N) (p : Fin 1024) : Fin 8192 := ⟨1024 * ((t.val / 8) % 8) + p.val, by have := p.isLt; omega⟩
/-- Row q of grid point t's key tile: 1024 · (t mod 8) + q. -/
def krow (t : Fin cfg0.N) (q : Fin 1024) : Fin 8192 := ⟨1024 * (t.val % 8) + q.val, by have := q.isLt; omega⟩

/-! ## The five index maps over the grid -/

/-- The query window's block index at point t: (batch, query tile, 0). -/
theorem idx_q : ∀ t : Fin cfg0.N, win0_0.index t (0 : Fin 3) = t.val / 64 ∧ win0_0.index t (1 : Fin 3) = (t.val / 8) % 8
    ∧ win0_0.index t (2 : Fin 3) = 0 :=
  (by decide +kernel : ∀ t : Fin grid0.N, _)
/-- The transposed key window's block index at point t: (batch, 0, key tile). -/
theorem idx_kt : ∀ t : Fin cfg0.N, win0_1.index t (0 : Fin 3) = t.val / 64 ∧ win0_1.index t (1 : Fin 3) = 0
    ∧ win0_1.index t (2 : Fin 3) = t.val % 8 :=
  (by decide +kernel : ∀ t : Fin grid0.N, _)
/-- The key window's block index at point t: (batch, key tile, 0). -/
theorem idx_k : ∀ t : Fin cfg0.N, win0_2.index t (0 : Fin 3) = t.val / 64 ∧ win0_2.index t (1 : Fin 3) = t.val % 8
    ∧ win0_2.index t (2 : Fin 3) = 0 :=
  (by decide +kernel : ∀ t : Fin grid0.N, _)
/-- The attention window's block index at point t: (batch, query tile, key tile). -/
theorem idx_att : ∀ t : Fin cfg0.N, win0_3.index t (0 : Fin 3) = t.val / 64 ∧ win0_3.index t (1 : Fin 3) = (t.val / 8) % 8
    ∧ win0_3.index t (2 : Fin 3) = t.val % 8 :=
  (by decide +kernel : ∀ t : Fin grid0.N, _)
/-- The context window's block index at point t: (batch, query tile, 0). -/
theorem idx_ctx : ∀ t : Fin cfg0.N, win0_4.index t (0 : Fin 3) = t.val / 64 ∧ win0_4.index t (1 : Fin 3) = (t.val / 8) % 8
    ∧ win0_4.index t (2 : Fin 3) = 0 :=
  (by decide +kernel : ∀ t : Fin grid0.N, _)

/-! ## Where a block's element sits in its array -/

/-- Element (0, p, k) of the query block at point t is entry (batch, query row p, k) of the states. -/
theorem blk_q_emb (t : Fin cfg0.N) (p : Fin 1024) (k : Fin 2) :
    ((cfg0.win 0).blk t).view.emb (ix3 (0 : Fin 1) p k) = ix3 (bt t) (qrow t p) k := by
  obtain ⟨e0, e1, e2⟩ := idx_q t
  funext a; apply Fin.ext
  match a with
  | ⟨0, _⟩ => show win0_0.index t (0 : Fin 3) * 1 + 1 * 0 = t.val / 64; omega
  | ⟨1, _⟩ => show win0_0.index t (1 : Fin 3) * 1024 + 1 * p.val = 1024 * ((t.val / 8) % 8) + p.val; omega
  | ⟨2, _⟩ => show win0_0.index t (2 : Fin 3) * 2 + 1 * k.val = k.val; omega

/-- Element (0, k, q) of the transposed key block at point t is entry (batch, k, key row q) of the transposed states. -/
theorem blk_kt_emb (t : Fin cfg0.N) (k : Fin 2) (q : Fin 1024) :
    ((cfg0.win 1).blk t).view.emb (ix3 (0 : Fin 1) k q) = ix3 (bt t) k (krow t q) := by
  obtain ⟨e0, e1, e2⟩ := idx_kt t
  funext a; apply Fin.ext
  match a with
  | ⟨0, _⟩ => show win0_1.index t (0 : Fin 3) * 1 + 1 * 0 = t.val / 64; omega
  | ⟨1, _⟩ => show win0_1.index t (1 : Fin 3) * 2 + 1 * k.val = k.val; omega
  | ⟨2, _⟩ => show win0_1.index t (2 : Fin 3) * 1024 + 1 * q.val = 1024 * (t.val % 8) + q.val; omega

/-- Element (0, q, k) of the key block at point t is entry (batch, key row q, k) of the states. -/
theorem blk_k_emb (t : Fin cfg0.N) (q : Fin 1024) (k : Fin 2) :
    ((cfg0.win 2).blk t).view.emb (ix3 (0 : Fin 1) q k) = ix3 (bt t) (krow t q) k := by
  obtain ⟨e0, e1, e2⟩ := idx_k t
  funext a; apply Fin.ext
  match a with
  | ⟨0, _⟩ => show win0_2.index t (0 : Fin 3) * 1 + 1 * 0 = t.val / 64; omega
  | ⟨1, _⟩ => show win0_2.index t (1 : Fin 3) * 1024 + 1 * q.val = 1024 * (t.val % 8) + q.val; omega
  | ⟨2, _⟩ => show win0_2.index t (2 : Fin 3) * 2 + 1 * k.val = k.val; omega

/-- Element (0, p, q) of the attention block at point t is entry (batch, query row p, key row q) of the attention. -/
theorem blk_att_emb (t : Fin cfg0.N) (p q : Fin 1024) :
    ((cfg0.win 3).blk t).view.emb (ix3 (0 : Fin 1) p q) = ix3 (bt t) (qrow t p) (krow t q) := by
  obtain ⟨e0, e1, e2⟩ := idx_att t
  funext a; apply Fin.ext
  match a with
  | ⟨0, _⟩ => show win0_3.index t (0 : Fin 3) * 1 + 1 * 0 = t.val / 64; omega
  | ⟨1, _⟩ => show win0_3.index t (1 : Fin 3) * 1024 + 1 * p.val = 1024 * ((t.val / 8) % 8) + p.val; omega
  | ⟨2, _⟩ => show win0_3.index t (2 : Fin 3) * 1024 + 1 * q.val = 1024 * (t.val % 8) + q.val; omega

/-- Element (0, p, k) of the context block at point t is entry (batch, query row p, k) of the context. -/
theorem blk_ctx_emb (t : Fin cfg0.N) (p : Fin 1024) (k : Fin 2) :
    ((cfg0.win 4).blk t).view.emb (ix3 (0 : Fin 1) p k) = ix3 (bt t) (qrow t p) k := by
  obtain ⟨e0, e1, e2⟩ := idx_ctx t
  funext a; apply Fin.ext
  match a with
  | ⟨0, _⟩ => show win0_4.index t (0 : Fin 3) * 1 + 1 * 0 = t.val / 64; omega
  | ⟨1, _⟩ => show win0_4.index t (1 : Fin 3) * 1024 + 1 * p.val = 1024 * ((t.val / 8) % 8) + p.val; omega
  | ⟨2, _⟩ => show win0_4.index t (2 : Fin 3) * 2 + 1 * k.val = k.val; omega

/-! ## The input blocks read at an index -/

/-- The query block at point t holds, at (0, p, k), coordinate k of the state at query row p of the batch. -/
theorem iblk_q_apply (c : Dev nD) (t : Fin cfg0.N) (p : Fin 1024) (k : Fin 2) :
    iblk m c 0 t (ix3 (0 : Fin 1) p k)
      = (m ((c : Thread nD τ).loc main_arg0) : S4x8192x2.Idx → Elt F .f32) (ix3 (bt t) (qrow t p) k) := by
  show V m c main_arg0 (((cfg0.win 0).blk t).view.emb (ix3 (0 : Fin 1) p k)) = _
  rw [blk_q_emb, V_main_arg0]

/-- The key block at point t holds, at (0, q, k), coordinate k of the state at key row q of the batch. -/
theorem iblk_k_apply (c : Dev nD) (t : Fin cfg0.N) (q : Fin 1024) (k : Fin 2) :
    iblk m c 2 t (ix3 (0 : Fin 1) q k)
      = (m ((c : Thread nD τ).loc main_arg0) : S4x8192x2.Idx → Elt F .f32) (ix3 (bt t) (krow t q) k) := by
  show V m c main_arg0 (((cfg0.win 2).blk t).view.emb (ix3 (0 : Fin 1) q k)) = _
  rw [blk_k_emb, V_main_arg0]

/-- The region finds the transposed states in the second window's array. -/
theorem V_main_v0 (c : Dev nD) :
    (V m c main_v0 : S4x2x8192.Idx → Elt F .f32)
      = transpose S4x2x8192 [0, 2, 1] (m ((c : Thread nD τ).loc main_arg0) : S4x8192x2.Idx → Elt F .f32)
          Facts₀.transposes_S4x8192x2_S4x2x8192_0_2_1 := by
  dsimp only [V, hostOps0]; after_results

/-- The transposed key block at point t holds, at (0, k, q), coordinate k of the state at key row q of the batch:
    the transposed states at (b, k, r) are the states at (b, r, k). -/
theorem iblk_kt_apply (c : Dev nD) (t : Fin cfg0.N) (k : Fin 2) (q : Fin 1024) :
    iblk m c 1 t (ix3 (0 : Fin 1) k q)
      = (m ((c : Thread nD τ).loc main_arg0) : S4x8192x2.Idx → Elt F .f32) (ix3 (bt t) (krow t q) k) := by
  show (V m c main_v0 : S4x2x8192.Idx → Elt F .f32) (((cfg0.win 1).blk t).view.emb (ix3 (0 : Fin 1) k q)) = _
  rw [blk_kt_emb, V_main_v0]
  exact transpose_apply _ _ _ _ _ fun a => match a with | ⟨0, _⟩ => rfl | ⟨1, _⟩ => rfl | ⟨2, _⟩ => rfl

/-! ## The output blocks cover the results -/

/-- Every entry (b, r, s) of the attention lies in a written-back block: that of point 64·b + 8·(r / 1024) + s / 1024,
    whose batch is b, query tile r / 1024 and key tile s / 1024. -/
theorem cover_att (i : S4x8192x8192.Idx) :
    ∃ t : Fin cfg0.N, (cfg0.win 3).flush t = true ∧ i ∈ ((cfg0.win 3).blk t).view.set := by
  have h0 : (i 0).val < 4 := (i 0).isLt
  have h1 : (i 1).val < 8192 := (i 1).isLt
  have h2 : (i 2).val < 8192 := (i 2).isLt
  have hN : cfg0.N = 256 := N_0
  obtain ⟨n, hn, r0, r1, r2⟩ : ∃ n : ℕ, n < cfg0.N ∧ n / 64 = (i 0).val ∧ (n / 8) % 8 = (i 1).val / 1024
      ∧ n % 8 = (i 2).val / 1024 :=
    ⟨64 * (i 0).val + 8 * ((i 1).val / 1024) + (i 2).val / 1024, by omega, by omega, by omega, by omega⟩
  have e := idx_att ⟨n, hn⟩
  have e0 : win0_3.index ⟨n, hn⟩ (0 : Fin 3) = n / 64 := e.1
  have e1 : win0_3.index ⟨n, hn⟩ (1 : Fin 3) = (n / 8) % 8 := e.2.1
  have e2 : win0_3.index ⟨n, hn⟩ (2 : Fin 3) = n % 8 := e.2.2
  refine ⟨⟨n, hn⟩, flush0_3 _, ?_⟩
  show i ∈ ((View.whole main_v1_0).slice (win0_3.rect ⟨n, hn⟩)).set
  rw [View.set_slice_whole, Rect.mem_set_unit]
  intro a
  match a with
  | ⟨0, _⟩ => show win0_3.index ⟨n, hn⟩ (0 : Fin 3) * 1 ≤ (i 0).val ∧ (i 0).val < win0_3.index ⟨n, hn⟩ (0 : Fin 3) * 1 + 1; omega
  | ⟨1, _⟩ => show win0_3.index ⟨n, hn⟩ (1 : Fin 3) * 1024 ≤ (i 1).val ∧ (i 1).val < win0_3.index ⟨n, hn⟩ (1 : Fin 3) * 1024 + 1024; omega
  | ⟨2, _⟩ => show win0_3.index ⟨n, hn⟩ (2 : Fin 3) * 1024 ≤ (i 2).val ∧ (i 2).val < win0_3.index ⟨n, hn⟩ (2 : Fin 3) * 1024 + 1024; omega

/-- Every entry (b, r, k) of the context lies in a written-back block: that of point 64·b + 8·(r / 1024) + 7, whose
    batch is b and query tile r / 1024, at the last key tile, where the context window is written back. -/
theorem cover_ctx (i : S4x8192x2.Idx) :
    ∃ t : Fin cfg0.N, (cfg0.win 4).flush t = true ∧ i ∈ ((cfg0.win 4).blk t).view.set := by
  have h0 : (i 0).val < 4 := (i 0).isLt
  have h1 : (i 1).val < 8192 := (i 1).isLt
  have h2 : (i 2).val < 2 := (i 2).isLt
  have hN : cfg0.N = 256 := N_0
  obtain ⟨n, hn, r0, r1, r2⟩ : ∃ n : ℕ, n < cfg0.N ∧ n / 64 = (i 0).val ∧ (n / 8) % 8 = (i 1).val / 1024 ∧ n % 8 = 7 :=
    ⟨64 * (i 0).val + 8 * ((i 1).val / 1024) + 7, by omega, by omega, by omega, by omega⟩
  have e := idx_ctx ⟨n, hn⟩
  have e0 : win0_4.index ⟨n, hn⟩ (0 : Fin 3) = n / 64 := e.1
  have e1 : win0_4.index ⟨n, hn⟩ (1 : Fin 3) = (n / 8) % 8 := e.2.1
  have e2 : win0_4.index ⟨n, hn⟩ (2 : Fin 3) = 0 := e.2.2
  refine ⟨⟨n, hn⟩, (flush0_4 ⟨n, hn⟩).mpr r2, ?_⟩
  show i ∈ ((View.whole main_v1_1).slice (win0_4.rect ⟨n, hn⟩)).set
  rw [View.set_slice_whole, Rect.mem_set_unit]
  intro a
  match a with
  | ⟨0, _⟩ => show win0_4.index ⟨n, hn⟩ (0 : Fin 3) * 1 ≤ (i 0).val ∧ (i 0).val < win0_4.index ⟨n, hn⟩ (0 : Fin 3) * 1 + 1; omega
  | ⟨1, _⟩ => show win0_4.index ⟨n, hn⟩ (1 : Fin 3) * 1024 ≤ (i 1).val ∧ (i 1).val < win0_4.index ⟨n, hn⟩ (1 : Fin 3) * 1024 + 1024; omega
  | ⟨2, _⟩ => show win0_4.index ⟨n, hn⟩ (2 : Fin 3) * 2 ≤ (i 2).val ∧ (i 2).val < win0_4.index ⟨n, hn⟩ (2 : Fin 3) * 2 + 2; omega

end Cert.KernelIdeal.Blk

end
-- ==== Proof.AttnSpec.lean ====
/-
  The gated planar attention both programs compute, as functions on the extended reals.

  A state is a point (x, y) of the plane.  For a query point (xi, yi) and a key point (xj, yj) the
  similarity is the inner product plus a fixed multiple of the planar cross product,
      sim = (xi·xj + yi·yj) + α·(xi·yj − yi·xj),
  the gate is 1 / (ε + |sim|), and the attention weight is sim·gate where the gate exceeds one half
  and zero elsewhere.  The context of a query is the sum over all keys of weight times key state.
  α, ε, 1 and ½ are the values of four f32 words; nothing below evaluates them.
-/
import Idealize.ShloMosaic.PureOps.Ideal
import Idealize.ShloMosaic.Lib.ValueIdx

noncomputable section

namespace Cert.AttnSpec

open Idealize.ShloMosaic Idealize.ShloMosaic.ValueIdx

/-- The state array: 4 batches of 8192 planar points. -/
abbrev SIn : Shape := ⟨3, ![4, 8192, 2]⟩
/-- The attention array: per batch, one weight per (query, key) pair. -/
abbrev SAtt : Shape := ⟨3, ![4, 8192, 8192]⟩

/-- The cross-term weight α (the f32 nearest one tenth). -/
def alpha : EReal := Ideal.ofBits .f32 0x3DCCCCCD#32
/-- The gate's offset ε (the f32 nearest 1e-5). -/
def eps : EReal := Ideal.ofBits .f32 0x3727C5AC#32
/-- The gate's numerator, 1. -/
def one : EReal := Ideal.ofBits .f32 0x3F800000#32
/-- The gate's threshold, ½. -/
def half : EReal := Ideal.ofBits .f32 0x3F000000#32
/-- The weight of a masked pair, 0. -/
def zero : EReal := Ideal.ofBits .f32 0x00000000#32

/-- Inner product plus α times the cross product of the query (xi, yi) and the key (xj, yj). -/
def sim (xi yi xj yj : EReal) : EReal := (xi * xj + yi * yj) + alpha * (xi * yj - yi * xj)

/-- The gate of a similarity: 1 / (ε + |s|), the absolute value as max s (−s). -/
def gate (s : EReal) : EReal := Ideal.div one (eps + max s (-s))

/-- The attention weight of a similarity: s·gate where the gate exceeds ½, else 0. -/
def weight (s : EReal) : EReal := Scalar.select (Ideal.cmp .ogt (gate s) half) (s * gate s) zero

/-- The weight of the pair (query, key). -/
def pairWeight (xi yi xj yj : EReal) : EReal := weight (sim xi yi xj yj)

/-- The attention array of a state array: entry (b, i, j) is the weight of query i and key j of batch b. -/
def att (s : SIn.Idx → EReal) : SAtt.Idx → EReal := fun o =>
  pairWeight (s (ix3 (o 0) (o 1) (0 : Fin 2))) (s (ix3 (o 0) (o 1) (1 : Fin 2)))
    (s (ix3 (o 0) (o 2) (0 : Fin 2))) (s (ix3 (o 0) (o 2) (1 : Fin 2)))

/-- The context array: entry (b, i, k) is the sum over the keys j of weight (b, i, j) times coordinate k of key j. -/
def ctx (s : SIn.Idx → EReal) : SIn.Idx → EReal := fun o =>
  ∑ j : Fin 8192, att s (ix3 (o 0) (o 1) j) * s (ix3 (o 0) j (o 2))

end Cert.AttnSpec

end
-- ==== Proof.PayloadValue.lean ====
/-
  The kernel body's arithmetic, read one element at a time on the extended reals.

  One step of the body holds a block of 1024 queries, as two columns x and y, and a block of 1024 keys, as
  two rows x and y. Its tile has, at (p, q), the attention weight of query p and key q: the similarity
  (xp·xq + yp·yq) + α·(xp·yq − yp·xq), gated by 1 / (ε + |sim|) and kept where the gate exceeds ½. The
  accumulator gains, at (p, k), the sum over the keys q of that weight times coordinate k of key q; the last
  step writes the accumulator out unchanged, and the first one starts it from zero. Every reshape between
  [a, b] and [1, a, b] keeps the element, a column or a row spread over the tile is read at its own
  coordinate, and a change of float format is the identity here.
-/
import proofs.«112722_j14963666059655_2_alg».proof.Proof.Gen.KernelIdeal.Skeleton
import proofs.«112722_j14963666059655_2_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Idealize.ShloMosaic Idealize.ShloMosaic.ValueIdx Cert.KernelIdeal Cert.KernelIdeal.Gen

variable {α : Type}

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A query column `[1, 1024, 1]` spread over the tile reads, at `(p, q)`, the query's row `p`. -/
theorem col_apply (v : Vec Ideal S1x1024x1 .f32) (h1 : S1x1024x1.ShapeCasts S1024x1)
    (h2 : S1024x1.Broadcasts S1024x1024) (p q : Fin 1024) :
    broadcastTo S1024x1024 (shapeCast S1024x1 v h1) h2 (ix2 p q) = v (ix3 (0 : Fin 1) p (0 : Fin 1)) :=
  (broadcastTo_a1_ab_apply _ h2 p q).trans (shapeCast_1ab_ab_apply v h1 p (0 : Fin 1))

/-- A key row `[1, 1, 1024]` spread over the tile reads, at `(p, q)`, the key's column `q`. -/
theorem row_apply (v : Vec Ideal S1x1x1024 .f32) (h1 : S1x1x1024.ShapeCasts S1x1024)
    (h2 : S1x1024.Broadcasts S1024x1024) (p q : Fin 1024) :
    broadcastTo S1024x1024 (shapeCast S1x1024 v h1) h2 (ix2 p q) = v (ix3 (0 : Fin 1) (0 : Fin 1) q) :=
  (broadcastTo_1b_ab_apply _ h2 p q).trans (shapeCast_1ab_ab_apply v h1 (0 : Fin 1) q)

/-- The similarity tile at `(p, q)` is the similarity of query `p` and key `q`. -/
theorem sim_apply (v3 v5 : Vec Ideal S1x1024x1 .f32) (v7 v9 : Vec Ideal S1x1x1024 .f32) (p q : Fin 1024) :
    k0_pay6 (F := Ideal) v3 v5 v7 v9 (ix2 p q)
      = Cert.AttnSpec.sim (v3 (ix3 0 p 0)) (v5 (ix3 0 p 0)) (v7 (ix3 0 0 q)) (v9 (ix3 0 0 q)) := by
  unfold k0_pay6
  simp only [addf_apply, mulf_apply, subf_apply, broadcast_apply]
  rw [col_apply v3, col_apply v5, row_apply v7, row_apply v9]
  rfl

/-- The gate tile is the gate of the similarity tile, element by element. -/
theorem gate_apply (v3 v5 : Vec Ideal S1x1024x1 .f32) (v7 v9 : Vec Ideal S1x1x1024 .f32) (i : S1024x1024.Idx) :
    k0_pay7 (F := Ideal) v3 v5 v7 v9 i = Cert.AttnSpec.gate (k0_pay6 (F := Ideal) v3 v5 v7 v9 i) := rfl

/-- The attention tile at `(p, q)` is the weight of the pair (query `p`, key `q`). -/
theorem weight_apply (v3 v5 : Vec Ideal S1x1024x1 .f32) (v7 v9 : Vec Ideal S1x1x1024 .f32) (p q : Fin 1024) :
    k0_pay1 (F := Ideal) (k0_pay8 v3 v5 v7 v9) (k0_pay9 v3 v5 v7 v9) k0_pay10 (ix2 p q)
      = Cert.AttnSpec.pairWeight (v3 (ix3 0 p 0)) (v5 (ix3 0 p 0)) (v7 (ix3 0 0 q)) (v9 (ix3 0 0 q)) := by
  unfold Cert.AttnSpec.pairWeight
  rw [← sim_apply v3 v5 v7 v9 p q]
  rfl

/-- The stored tile `[1, 1024, 1024]` at `(0, p, q)` is the same weight. -/
theorem tile_apply (v3 v5 : Vec Ideal S1x1024x1 .f32) (v7 v9 : Vec Ideal S1x1x1024 .f32) (p q : Fin 1024) :
    k0_pay2 (F := Ideal) (k0_pay8 v3 v5 v7 v9) (k0_pay9 v3 v5 v7 v9) k0_pay10 (ix3 0 p q)
      = Cert.AttnSpec.pairWeight (v3 (ix3 0 p 0)) (v5 (ix3 0 p 0)) (v7 (ix3 0 0 q)) (v9 (ix3 0 0 q)) :=
  (shapeCast_ab_1ab_apply _ _ (0 : Fin 1) p q).trans (weight_apply v3 v5 v7 v9 p q)

/-- The flushed block `[1, 1024, 2]` at `(0, p, k)` is the accumulator at `(p, k)`. -/
theorem flush_apply (v54 : Vec Ideal S1024x2 .f32) (p : Fin 1024) (k : Fin 2) :
    k0_pay4 (F := Ideal) v54 (ix3 0 p k) = v54 (ix2 p k) :=
  shapeCast_ab_1ab_apply v54 _ (0 : Fin 1) p k

/-- The reset accumulator is zero everywhere. -/
theorem reset_apply (p : Fin 1024) (k : Fin 2) : k0_pay5 (F := Ideal) (ix2 p k) = 0 := by
  unfold k0_pay5
  rw [shapeCast_self]
  exact Ideal.ofBits_zero_f32

/-- The product's left operand index: row `p` of the output, column the contraction coordinate. -/
theorem lhs_row (i : S1024x2.Idx) (c : dot_S1024x1024_S1024x2_S1024x2_1_0_0_1_n_n.contr.Idx) :
    (dot_S1024x1024_S1024x2_S1024x2_1_0_0_1_n_n.lhsIdx i c 0).val = (i 0).val := by
  unfold DotDims.lhsIdx
  rw [dif_neg (show ¬(0 : Fin S1024x1024.rank) ∈ dot_S1024x1024_S1024x2_S1024x2_1_0_0_1_n_n.lhsBatch by decide),
    dif_pos (show (0 : Fin S1024x1024.rank) ∈ dot_S1024x1024_S1024x2_S1024x2_1_0_0_1_n_n.lhsNonContracting by decide)]
  rfl

/-- The product's right operand index: column `k` of the output, row the contraction coordinate. -/
theorem rhs_col (i : S1024x2.Idx) (c : dot_S1024x1024_S1024x2_S1024x2_1_0_0_1_n_n.contr.Idx) :
    (dot_S1024x1024_S1024x2_S1024x2_1_0_0_1_n_n.rhsIdx i c 1).val = (i 1).val := by
  unfold DotDims.rhsIdx
  rw [dif_neg (show ¬(1 : Fin S1024x2.rank) ∈ dot_S1024x1024_S1024x2_S1024x2_1_0_0_1_n_n.rhsBatch by decide),
    dif_pos (show (1 : Fin S1024x2.rank) ∈ dot_S1024x1024_S1024x2_S1024x2_1_0_0_1_n_n.rhsNonContracting by decide)]
  rfl

/-- A `[1024, 1024] × [1024, 2]` product into a zero accumulator: at `(p, k)`, the sum over `q` of the left operand at
`(p, q)` times the right operand at `(q, k)`. -/
theorem matmul_zero_apply (L : FVec Ideal S1024x1024 .bf16) (R : FVec Ideal S1024x2 .bf16) (p : Fin 1024) (k : Fin 2) :
    matmul dot_S1024x1024_S1024x2_S1024x2_1_0_0_1_n_n none L R
        (constant (F := Ideal) S1024x2 .f32 0x00000000#32) (ix2 p k)
      = ∑ q : Fin 1024, L (ix2 p q) * R (ix2 q k) := by
  simp only [matmul]
  rw [Ideal.matmul_constant_zero_apply,
    ← Equiv.sum_comp (contrEquiv1 dot_S1024x1024_S1024x2_S1024x2_1_0_0_1_n_n 1024 rfl rfl).symm]
  refine Finset.sum_congr rfl fun q _ => ?_
  have hq := contrEquiv1_symm_val dot_S1024x1024_S1024x2_S1024x2_1_0_0_1_n_n 1024 rfl rfl q
  have el : dot_S1024x1024_S1024x2_S1024x2_1_0_0_1_n_n.lhsIdx (ix2 p k)
      ((contrEquiv1 dot_S1024x1024_S1024x2_S1024x2_1_0_0_1_n_n 1024 rfl rfl).symm q) = ix2 p q :=
    funext fun a => Fin.ext (by
      match a with
      | ⟨0, _⟩ => exact lhs_row _ _
      | ⟨1, _⟩ => exact (dot_S1024x1024_S1024x2_S1024x2_1_0_0_1_n_n.lhsIdx_val_of_single rfl _ _).trans hq)
  have er : dot_S1024x1024_S1024x2_S1024x2_1_0_0_1_n_n.rhsIdx (ix2 p k)
      ((contrEquiv1 dot_S1024x1024_S1024x2_S1024x2_1_0_0_1_n_n 1024 rfl rfl).symm q) = ix2 q k :=
    funext fun a => Fin.ext (by
      match a with
      | ⟨0, _⟩ => exact (dot_S1024x1024_S1024x2_S1024x2_1_0_0_1_n_n.rhsIdx_val_of_single rfl _ _).trans hq
      | ⟨1, _⟩ => exact rhs_col _ _)
  rw [el, er]

/-- The accumulator update at `(p, k)`: the old accumulator plus the sum over the keys `q` of the tile's weight at
`(p, q)` times the key block at `(0, q, k)`. -/
theorem acc_apply (v34 : IVec S1024x1024 1) (v35 v36 : FVec Ideal S1024x1024 .f32) (acc : Vec Ideal S1024x2 .f32)
    (blk : Vec Ideal S1x1024x2 .f32) (p : Fin 1024) (k : Fin 2) :
    k0_pay3 (F := Ideal) v34 v35 v36 acc blk (ix2 p k)
      = acc (ix2 p k) + ∑ q : Fin 1024, k0_pay1 (F := Ideal) v34 v35 v36 (ix2 p q) * blk (ix3 0 q k) := by
  unfold k0_pay3
  rw [shapeCast_self, addf_apply, matmul_zero_apply]
  refine congrArg (acc (ix2 p k) + ·) (Finset.sum_congr rfl fun q _ => ?_)
  rw [truncf_apply, truncf_apply, shapeCast_1ab_ab_apply]

end Cert.KernelIdeal.PayValue

end
-- ==== Proof.LibTileSum.lean ====
/-
  Sums cut into tiles, over any additive commutative monoid: no subtraction and no cancellation is used, so every
  statement holds where infinite values are allowed.

  A sum over K·T consecutive indices is the sum over K tiles of the T terms of each tile; an accumulator that starts
  from zero and adds one tile's sum per step holds, after step n, the sum of tiles 0 … n.  Together, at 8 tiles of
  1024: the accumulator after the eighth tile is the sum over all 8192 indices.
-/
import Mathlib.Algebra.BigOperators.Fin

namespace Cert.TileSum

variable {M : Type*} [AddCommMonoid M]

/-- Position q of tile j, tiles of T, lies below K·T when j is below K:
    j·T + q < j·T + T = (j + 1)·T ≤ K·T. -/
theorem tile_lt {K T : ℕ} (j : Fin K) (q : Fin T) : j.val * T + q.val < K * T :=
  calc j.val * T + q.val < j.val * T + T := Nat.add_lt_add_left q.isLt _
    _ = (j.val + 1) * T := (Nat.succ_mul _ _).symm
    _ ≤ K * T := Nat.mul_le_mul_right _ j.isLt

/-- A running total over tiles is the sum of the tiles, when the recurrence is known only for the tiles below a
    bound N: if A 0 is 0 plus tile 0's sum and, for j + 1 < N, A (j + 1) is A j plus tile (j + 1)'s sum, then for
    n < N, A n is the double sum over the tiles 0 … n. -/
theorem running_total_below {T : ℕ} (N : ℕ) (g : ℕ → Fin T → M) (A : ℕ → M)
    (h0 : A 0 = 0 + ∑ q, g 0 q) (hs : ∀ j, j + 1 < N → A (j + 1) = A j + ∑ q, g (j + 1) q) (n : ℕ) (hn : n < N) :
    A n = ∑ j ∈ Finset.range (n + 1), ∑ q, g j q := by
  induction n with
  | zero => rw [h0, zero_add, Finset.sum_range_one]
  | succ n ih =>
    rw [hs n hn, ih (Nat.lt_of_succ_lt hn)]
    exact (Finset.sum_range_succ (fun j => ∑ q, g j q) (n + 1)).symm

/-- A running total over tiles is the sum of the tiles: if A 0 is 0 plus tile 0's sum and each later A is the
    previous plus that tile's sum, A n is the double sum up to n. -/
theorem running_total {T : ℕ} (g : ℕ → Fin T → M) (A : ℕ → M)
    (h0 : A 0 = 0 + ∑ q, g 0 q) (hs : ∀ j, A (j + 1) = A j + ∑ q, g (j + 1) q) (n : ℕ) :
    A n = ∑ j ∈ Finset.range (n + 1), ∑ q, g j q :=
  running_total_below (n + 1) g A h0 (fun j _ => hs j) n (Nat.lt_succ_self n)

/-- A sum over K·T consecutive indices is the sum over K tiles of T: index j·T + q is position q of tile j, and
    (j, q) ↦ j·T + q is a bijection from pairs onto the indices below K·T. -/
theorem sum_tiles (K T : ℕ) (f : Fin (K * T) → M) :
    ∑ n, f n = ∑ j : Fin K, ∑ q : Fin T, f ⟨j.val * T + q.val, tile_lt j q⟩ := by
  rw [← Equiv.sum_comp finProdFinEquiv f, Fintype.sum_prod_type]
  refine Finset.sum_congr rfl fun j _ => Finset.sum_congr rfl fun q _ => congrArg f (Fin.ext ?_)
  rw [finProdFinEquiv_apply_val, Nat.mul_comm, Nat.add_comm]

/-- Tile j of a function on 8192 indices, by position in the tile; zero from the ninth tile on. -/
def tile8 (f : Fin 8192 → M) (j : ℕ) (q : Fin 1024) : M :=
  if h : j < 8 then f ⟨j * 1024 + q.val, by omega⟩ else 0

/-- Below the ninth tile it is the function at index j·1024 + q. -/
theorem tile8_of_lt (f : Fin 8192 → M) (j : ℕ) (hj : j < 8) (q : Fin 1024) :
    tile8 f j q = f ⟨j * 1024 + q.val, by omega⟩ := dif_pos hj

/-- The two together at 8 tiles of 1024: the accumulator after the eighth tile is the sum over all 8192. -/
theorem acc_eight (f : Fin 8192 → M) (A : ℕ → M)
    (h0 : A 0 = 0 + ∑ q : Fin 1024, f ⟨0 * 1024 + q.val, by omega⟩)
    (hs : ∀ j, (hj : j + 1 < 8) → A (j + 1) = A j + ∑ q : Fin 1024, f ⟨(j + 1) * 1024 + q.val, by omega⟩) :
    A 7 = ∑ n : Fin 8192, f n := by
  have e0 : A 0 = 0 + ∑ q, tile8 f 0 q :=
    h0.trans (congrArg (0 + ·) (Finset.sum_congr rfl fun q _ => (tile8_of_lt f 0 (by omega) q).symm))
  have es : ∀ j, j + 1 < 8 → A (j + 1) = A j + ∑ q, tile8 f (j + 1) q := fun j hj =>
    (hs j hj).trans (congrArg (A j + ·) (Finset.sum_congr rfl fun q _ => (tile8_of_lt f (j + 1) hj q).symm))
  refine (running_total_below 8 (tile8 f) A e0 es 7 (by omega)).trans ?_
  refine Eq.trans ?_ (sum_tiles 8 1024 f).symm
  refine (Fin.sum_univ_eq_sum_range (fun j => ∑ q, tile8 f j q) 8).symm.trans ?_
  exact Finset.sum_congr rfl fun j _ => Finset.sum_congr rfl fun q _ => tile8_of_lt f j.val j.isLt q

end Cert.TileSum
-- ==== Proof.KIValue.lean ====
/-
  The kernel's two result arrays are the specification's, over the extended reals.

  At a grid position — batch b, query tile, key tile — the attention tile's entry (p, q) is the specified weight of
  query row 1024·(query tile) + p and key row 1024·(key tile) + q of batch b: the body's expression read at an
  index, the blocks read where their rectangles say.  One accumulator step adds to the old entry (p, k) the sum
  over the key tile's 1024 rows of weight times key coordinate k; started from zero on the first key tile, the eight
  steps of a query tile add up to the sum over all 8192 keys, which is the specified context entry.  Every attention
  block is written back and the blocks cover the array; the context block is written back on the last key tile and
  those blocks cover theirs.  So each result array ends holding the specified array.
-/
import proofs.«112722_j14963666059655_2_alg».proof.Proof.KIFrame
import proofs.«112722_j14963666059655_2_alg».proof.Proof.KIPieces
import proofs.«112722_j14963666059655_2_alg».proof.Proof.KIBlocks
import proofs.«112722_j14963666059655_2_alg».proof.Proof.PayloadValue
import proofs.«112722_j14963666059655_2_alg».proof.Proof.LibTileSum
import proofs.«112722_j14963666059655_2_alg».proof.Proof.AttnSpec
import Idealize.ShloMosaic.Lib.Pipeline.Value

set_option maxRecDepth 16384

noncomputable section

namespace Cert.KernelIdeal.Val

open Cert.KernelIdeal Cert.KernelIdeal.Gen Cert.KernelIdeal.Fr Cert.KernelIdeal.Blk Cert.KernelIdeal.PayValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The states on core `c`, as launched. -/
abbrev St (c : Dev nD) : S4x8192x2.Idx → EReal := m ((c : Thread nD τ).loc main_arg0)

/-! ## The loaded columns and rows at an index -/

theorem qx_apply (x0 : Vec Ideal S1x1024x2 .f32) (p : Fin 1024) :
    qx x0 (ix3 (0 : Fin 1) p (0 : Fin 1)) = x0 (ix3 (0 : Fin 1) p (0 : Fin 2)) := by
  unfold qx
  show x0 _ = x0 _
  congr 1; funext a; apply Fin.ext
  simp only [LoadRect.idx_apply, Rect.off_unit, Rect.stride_unit]
  match a with
  | ⟨0, _⟩ => rfl
  | ⟨1, _⟩ => show 0 + 1 * p.val = p.val; omega
  | ⟨2, _⟩ => rfl

theorem qy_apply (x0 : Vec Ideal S1x1024x2 .f32) (p : Fin 1024) :
    qy x0 (ix3 (0 : Fin 1) p (0 : Fin 1)) = x0 (ix3 (0 : Fin 1) p (1 : Fin 2)) := by
  unfold qy
  show x0 _ = x0 _
  congr 1; funext a; apply Fin.ext
  simp only [LoadRect.idx_apply, Rect.off_unit, Rect.stride_unit]
  match a with
  | ⟨0, _⟩ => rfl
  | ⟨1, _⟩ => show 0 + 1 * p.val = p.val; omega
  | ⟨2, _⟩ => rfl

theorem kx_apply (x1 : Vec Ideal S1x2x1024 .f32) (q : Fin 1024) :
    kx x1 (ix3 (0 : Fin 1) (0 : Fin 1) q) = x1 (ix3 (0 : Fin 1) (0 : Fin 2) q) := by
  unfold kx
  show x1 _ = x1 _
  congr 1; funext a; apply Fin.ext
  simp only [LoadRect.idx_apply, Rect.off_unit, Rect.stride_unit]
  match a with
  | ⟨0, _⟩ => rfl
  | ⟨1, _⟩ => rfl
  | ⟨2, _⟩ => show 0 + 1 * q.val = q.val; omega

theorem ky_apply (x1 : Vec Ideal S1x2x1024 .f32) (q : Fin 1024) :
    ky x1 (ix3 (0 : Fin 1) (0 : Fin 1) q) = x1 (ix3 (0 : Fin 1) (1 : Fin 2) q) := by
  unfold ky
  show x1 _ = x1 _
  congr 1; funext a; apply Fin.ext
  simp only [LoadRect.idx_apply, Rect.off_unit, Rect.stride_unit]
  match a with
  | ⟨0, _⟩ => rfl
  | ⟨1, _⟩ => rfl
  | ⟨2, _⟩ => show 0 + 1 * q.val = q.val; omega

/-! ## The tile and the accumulator step at an index -/

/-- The weight of a (query row, key column) pair of the blocks at position `t` is the specified attention entry. -/
theorem weight_at (c : Dev nD) (t : Fin cfg0.N) (p q : Fin 1024) :
    Cert.AttnSpec.pairWeight (qx (iblk m c 0 t) (ix3 (0 : Fin 1) p (0 : Fin 1))) (qy (iblk m c 0 t) (ix3 (0 : Fin 1) p (0 : Fin 1)))
        (kx (iblk m c 1 t) (ix3 (0 : Fin 1) (0 : Fin 1) q)) (ky (iblk m c 1 t) (ix3 (0 : Fin 1) (0 : Fin 1) q))
      = Cert.AttnSpec.att (St m c) (ix3 (bt t) (qrow t p) (krow t q)) := by
  rw [qx_apply, qy_apply, kx_apply, ky_apply, iblk_q_apply, iblk_q_apply, iblk_kt_apply, iblk_kt_apply]
  rfl

theorem tile_at (c : Dev nD) (t : Fin cfg0.N) (p q : Fin 1024) :
    tileVal (iblk m c 0 t) (iblk m c 1 t) (ix3 (0 : Fin 1) p q) = Cert.AttnSpec.att (St m c) (ix3 (bt t) (qrow t p) (krow t q)) := by
  unfold tileVal
  rw [tile_apply]
  exact weight_at m c t p q

set_option maxHeartbeats 1600000 in
/-- One accumulator step at position `t`, entry (p, k): the old entry plus the key tile's share of the context sum. -/
theorem step_at (c : Dev nD) (t : Fin cfg0.N) (old : Vec Ideal S1024x2 .f32) (p : Fin 1024) (k : Fin 2) :
    accVal (iblk m c 0 t) (iblk m c 1 t) (iblk m c 2 t) old (ix2 p k)
      = old (ix2 p k) + ∑ q : Fin 1024,
          Cert.AttnSpec.att (St m c) (ix3 (bt t) (qrow t p) (krow t q)) * St m c (ix3 (bt t) (krow t q) k) := by
  unfold accVal
  refine (acc_apply _ _ _ old (iblk m c 2 t) p k).trans ?_
  refine congrArg₂ (· + ·) rfl (Finset.sum_congr rfl fun q _ => ?_)
  exact congrArg₂ (· * ·)
    ((weight_apply (qx (iblk m c 0 t)) (qy (iblk m c 0 t)) (kx (iblk m c 1 t)) (ky (iblk m c 1 t)) p q).trans (weight_at m c t p q))
    (iblk_k_apply m c t q k)

/-! ## Eight key tiles make the whole context sum -/

theorem accAt_congr (c : Dev nD) {n n' : ℕ} (e : n = n') (h : n < cfg0.N) (h' : n' < cfg0.N) :
    accAt m c n h = accAt m c n' h' := by subst e; rfl

/-- Position `s` is key tile `j` of the query tile whose last position is `t`: same batch, same query rows, and its key
    rows are the `j`-th thousand-and-twenty-four. -/
theorem same_tile (t s : Fin cfg0.N) (h7 : t.val % 8 = 7) (j : ℕ) (hj : j < 8) (hs : s.val = t.val - 7 + j) (p q : Fin 1024) :
    bt s = bt t ∧ qrow s p = qrow t p ∧ krow s q = (⟨j * 1024 + q.val, by have := q.isLt; omega⟩ : Fin 8192) := by
  have hN : cfg0.N = 256 := N_0
  have ht := t.isLt
  refine ⟨Fin.ext ?_, Fin.ext ?_, Fin.ext ?_⟩
  · show s.val / 64 = t.val / 64; omega
  · show 1024 * ((s.val / 8) % 8) + p.val = 1024 * ((t.val / 8) % 8) + p.val; omega
  · show 1024 * (s.val % 8) + q.val = j * 1024 + q.val; omega

/-- The context entry's summand at key row `n` of batch `bt t`, for query row `qrow t p` and coordinate `k`. -/
def term (c : Dev nD) (t : Fin cfg0.N) (p : Fin 1024) (k : Fin 2) (n : Fin 8192) : EReal :=
  Cert.AttnSpec.att (St m c) (ix3 (bt t) (qrow t p) n) * St m c (ix3 (bt t) n k)

theorem tile_terms (c : Dev nD) (t s : Fin cfg0.N) (h7 : t.val % 8 = 7) (j : ℕ) (hj : j < 8) (hs : s.val = t.val - 7 + j)
    (p : Fin 1024) (k : Fin 2) :
    (∑ q : Fin 1024, Cert.AttnSpec.att (St m c) (ix3 (bt s) (qrow s p) (krow s q)) * St m c (ix3 (bt s) (krow s q) k))
      = ∑ q : Fin 1024, term m c t p k ⟨j * 1024 + q.val, by have := q.isLt; omega⟩ := by
  refine Finset.sum_congr rfl fun q _ => ?_
  obtain ⟨e1, e2, e3⟩ := same_tile t s h7 j hj hs p q
  unfold term
  rw [e1, e2, e3]

/-- The accumulator after the last key tile of a query tile holds the specified context entries. -/
theorem ctx_at (c : Dev nD) (t : Fin cfg0.N) (h7 : t.val % 8 = 7) (p : Fin 1024) (k : Fin 2) :
    accAt m c t.val t.isLt (ix2 p k) = Cert.AttnSpec.ctx (St m c) (ix3 (bt t) (qrow t p) k) := by
  have hN : cfg0.N = 256 := N_0
  have ht := t.isLt
  have hpos : ∀ j, j < 8 → t.val - 7 + j < cfg0.N := fun j hj => by omega
  have key := Cert.TileSum.acc_eight (term m c t p k)
    (fun j => if h : j < 8 then accAt m c (t.val - 7 + j) (hpos j h) (ix2 p k) else 0) ?h0 ?hs
  case h0 =>
    rw [dif_pos (by omega : 0 < 8)]
    rw [accAt_first m c ⟨t.val - 7 + 0, hpos 0 (by omega)⟩ (by show (t.val - 7 + 0) % 8 = 0; omega), step_at, reset_apply]
    exact congrArg₂ (· + ·) rfl (tile_terms m c t ⟨t.val - 7 + 0, hpos 0 (by omega)⟩ h7 0 (by omega) rfl p k)
  case hs =>
    intro j hj
    rw [dif_pos (by omega : j + 1 < 8), dif_pos (by omega : j < 8)]
    rw [accAt_later m c ⟨t.val - 7 + (j + 1), hpos (j + 1) hj⟩ (by show ¬(t.val - 7 + (j + 1)) % 8 = 0; omega), step_at]
    refine congrArg₂ (· + ·) ?_ (tile_terms m c t ⟨t.val - 7 + (j + 1), hpos (j + 1) hj⟩ h7 (j + 1) hj rfl p k)
    exact congrFun (accAt_congr m c (by show t.val - 7 + (j + 1) - 1 = t.val - 7 + j; omega) _ _) _
  rw [dif_pos (by omega : 7 < 8)] at key
  rw [← congrFun (accAt_congr m c (by omega : t.val - 7 + 7 = t.val) (hpos 7 (by omega)) t.isLt) (ix2 p k), key]
  rfl

/-! ## The two result arrays -/

/-- What a position writes back to the attention result is its block of the specified attention array. -/
theorem flushed_att (c : Dev nD) (t : Fin cfg0.N) (hf : (cfg0.win 3).flush t = true) :
    (dats m 0 c).flushed 3 t = ((cfg0.win 3).blk t).view.read (Elt Ideal) (Cert.AttnSpec.att (St m c)) := by
  show (cfg0.win 3).cut (grid0.coords t) ((dats m 0 c).after 3 t) = _
  rw [after_att, outsAt_att]
  funext y
  obtain ⟨a, p, q, rfl⟩ : ∃ (a : Fin 1) (p q : Fin 1024), y = ix3 a p q := ⟨y 0, y 1, y 2, eq_ix3 y⟩
  obtain rfl : a = 0 := Subsingleton.elim _ _
  rw [View.read_apply, blk_att_emb]
  exact tile_at m c t p q

/-- What a last key tile writes back to the context result is its block of the specified context array. -/
theorem flushed_ctx (c : Dev nD) (t : Fin cfg0.N) (hf : (cfg0.win 4).flush t = true) :
    (dats m 0 c).flushed 4 t = ((cfg0.win 4).blk t).view.read (Elt Ideal) (Cert.AttnSpec.ctx (St m c)) := by
  have h7 : t.val % 8 = 7 := (flush0_4 t).mp hf
  show (cfg0.win 4).cut (grid0.coords t) ((dats m 0 c).after 4 t) = _
  rw [after_ctx, outsAt_ctx m c t h7]
  funext y
  obtain ⟨a, p, k, rfl⟩ : ∃ (a : Fin 1) (p : Fin 1024) (k : Fin 2), y = ix3 a p k := ⟨y 0, y 1, y 2, eq_ix3 y⟩
  obtain rfl : a = 0 := Subsingleton.elim _ _
  rw [View.read_apply, blk_ctx_emb]
  show k0_pay4 (accAt m c t.val t.isLt) (ix3 (0 : Fin 1) p k) = _
  rw [flush_apply]
  exact ctx_at m c t h7 p k

/-- Every attention block is written back and the blocks cover the array: it ends holding the specified array. -/
theorem final_att (c : Dev nD) : (dats m 0 c).arrAt 3 cfg0.N = Cert.AttnSpec.att (St m c) :=
  (dats m 0 c).arrAt_eq_of_cover 3 (Cert.AttnSpec.att (St m c)) (flushed_att m c) cover_att

/-- The context blocks written back on the last key tiles cover the array: it ends holding the specified array. -/
theorem final_ctx (c : Dev nD) : (dats m 0 c).arrAt 4 cfg0.N = Cert.AttnSpec.ctx (St m c) :=
  (dats m 0 c).arrAt_eq_of_cover 4 (Cert.AttnSpec.ctx (St m c)) (flushed_ctx m c) cover_ctx

/-- The idealized kernel's run, read: the two results at the specified arrays of the states, the states unchanged. -/
theorem run : θ_run defs (onTc (τ := τ) (main (F := Ideal))) ⟨m, fun _ => 0, ρ⟩ fun r => ∀ c : Dev nD,
      r.2.mem ((c.tc : Thread nD τ).loc main_v1_0) = Cert.AttnSpec.att (m ((c.tc : Thread nD τ).loc main_arg0))
      ∧ r.2.mem ((c.tc : Thread nD τ).loc main_v1_1) = Cert.AttnSpec.ctx (m ((c.tc : Thread nD τ).loc main_arg0))
      ∧ r.2.mem ((c.tc : Thread nD τ).loc main_arg0) = m ((c.tc : Thread nD τ).loc main_arg0) := by
  refine (θ_run defs _ _).mono (fun r h c => ?_) (run_main (F := Ideal) m ρ)
  have h3 : r.2.mem ((c.tc : Thread nD τ).loc main_v1_0) = (dats m 0 c).arrAt 3 cfg0.N := (h c).1 3
  have h4 : r.2.mem ((c.tc : Thread nD τ).loc main_v1_1) = (dats m 0 c).arrAt 4 cfg0.N := (h c).1 4
  have h0 : r.2.mem ((c.tc : Thread nD τ).loc main_arg0) = (dats m 0 c).arrAt 0 cfg0.N := (h c).1 0
  refine ⟨h3.trans (final_att m c), h4.trans (final_ctx m c), ?_⟩
  rw [h0, (dats m 0 c).arrAt_in 0 rfl cfg0.N, A_eq]
  exact V_main_arg0 m c

end Cert.KernelIdeal.Val

end
-- ==== Proof.RefValue.lean ====
/-
  The reference's two results, over the extended reals, are the gated planar attention.

  Write a state as (x, y).  The reference forms the inner product x_i·x_j + y_i·y_j of query i and key j, then the
  product of query i with the key turned a quarter turn, (y_j, −x_j): that is x_i·y_j + y_i·(−x_j), the planar cross
  product x_i·y_j − y_i·x_j.  Their combination with weight α is the similarity.  The gate is 1 / (ε + |sim|); the
  reference multiplies the similarity by the bit "gate > ½" read as 0 or 1 and then by the gate, which is sim·gate
  where the bit is set and 0 where it is not.  The second result sums each attention row against the states.
  Only x·(−y) = −(x·y), a − b = a + (−b), v·1 = v, v·0 = 0 and 0·g = 0 are used, so no state need be finite.
-/
import proofs.«112722_j14963666059655_2_alg».proof.Proof.AttnSpec
import proofs.«112722_j14963666059655_2_alg».proof.Proof.Gen.ReferenceIdeal.Read

noncomputable section

namespace Cert.RefValue

open Idealize.ShloMosaic Idealize.ShloMosaic.ValueIdx
open Cert.ReferenceIdeal Cert.ReferenceIdeal.Gen Cert.ReferenceIdeal.Read

/-- A state array over the extended reals: 4 batches of 8192 planar points. -/
abbrev State : Type := (⟨S4x8192x2, .f32⟩ : BufTy).Contents (Elt Ideal)

/-- A rank-3 index is the one built from coordinates with the same values. -/
theorem eq_ix3_of_val {n0 n1 n2 : Nat} (f : (⟨3, ![n0, n1, n2]⟩ : Shape).Idx) (a : Fin n0) (b : Fin n1) (c : Fin n2)
    (h0 : (f 0).val = a.val) (h1 : (f 1).val = b.val) (h2 : (f 2).val = c.val) : f = ix3 a b c :=
  funext fun d => match d with
    | ⟨0, _⟩ => Fin.ext h0
    | ⟨1, _⟩ => Fin.ext h1
    | ⟨2, _⟩ => Fin.ext h2

/-! ## The quarter-turned key: (x, y) ↦ (y, −x) -/

/-- Coordinate 0 of the turned key is the key's y: the column of second coordinates, flattened to [4, 8192] and
    back (position b·8192 + j has quotient b and remainder j), laid first. -/
theorem turned_fst (s : State) (b : Fin 4) (j : Fin 8192) :
    val_main_v8 (F := Ideal) s (ix3 b j (0 : Fin 2)) = s (ix3 b j (1 : Fin 2)) := by
  unfold val_main_v8
  refine (concatenate_pair_apply_left (t := S4x8192x2) (s₁ := S4x8192x1) (s₂ := S4x8192x1) _ _ _ _
    (ix3 b j (0 : Fin 2)) rfl (ix3 b j (0 : Fin 1))
    (fun a => match a with | ⟨0, _⟩ => rfl | ⟨1, _⟩ => rfl | ⟨2, _⟩ => rfl)).trans ?_
  rw [val_main_v6_apply, val_main_v2_apply, val_main_v1_apply]
  refine congrArg s (eq_ix3_of_val _ b j 1 ?_ ?_ rfl)
  · show (b.val * 8192 + j.val) / 8192 = b.val
    omega
  · show (b.val * 8192 + j.val) / 1 % 8192 = j.val
    omega

/-- Coordinate 1 of the turned key is minus the key's x: the negated column of first coordinates, laid second. -/
theorem turned_snd (s : State) (b : Fin 4) (j : Fin 8192) :
    val_main_v8 (F := Ideal) s (ix3 b j (1 : Fin 2)) = -(s (ix3 b j (0 : Fin 2))) := by
  unfold val_main_v8
  refine (concatenate_pair_apply_right (t := S4x8192x2) (s₁ := S4x8192x1) (s₂ := S4x8192x1) _ _ _ _
    (ix3 b j (1 : Fin 2)) rfl rfl (ix3 b j (0 : Fin 1))
    (fun a => match a with
      | ⟨0, _⟩ => fun _ => rfl
      | ⟨1, _⟩ => fun _ => rfl
      | ⟨2, _⟩ => fun h => absurd rfl h) rfl).trans ?_
  rw [val_main_v7_apply, val_main_v5_apply, val_main_v4_apply, val_main_v3_apply]
  show -(s _) = -(s _)
  refine congrArg (fun z => -(s z)) (eq_ix3_of_val _ b j 0 ?_ ?_ rfl)
  · show (b.val * 8192 + j.val) / 8192 = b.val
    omega
  · show (b.val * 8192 + j.val) / 1 % 8192 = j.val
    omega

/-! ## The similarity of a query and a key -/

/-- The inner product reads coordinate k of the query on the left … -/
theorem query_idx (b : Fin 4) (i j : Fin 8192) (k : Fin 2) : lidx_main_v0 (ix3 b i j) k = ix3 b i k :=
  eq_ix3_of_val _ b i k rfl rfl rfl
/-- … and coordinate k of the key on the right. -/
theorem key_idx (b : Fin 4) (i j : Fin 8192) (k : Fin 2) : ridx_main_v0 (ix3 b i j) k = ix3 b j k :=
  eq_ix3_of_val _ b j k rfl rfl rfl
/-- The product with the turned key reads coordinate k of the query on the left … -/
theorem query_idx' (b : Fin 4) (i j : Fin 8192) (k : Fin 2) : lidx_main_v9 (ix3 b i j) k = ix3 b i k :=
  eq_ix3_of_val _ b i k rfl rfl rfl
/-- … and coordinate k of the turned key on the right. -/
theorem key_idx' (b : Fin 4) (i j : Fin 8192) (k : Fin 2) : ridx_main_v9 (ix3 b i j) k = ix3 b j k :=
  eq_ix3_of_val _ b j k rfl rfl rfl

/-- The inner product of query i and key j: x_i·x_j + y_i·y_j. -/
theorem inner_apply (s : State) (b : Fin 4) (i j : Fin 8192) :
    val_main_v0 (F := Ideal) s (ix3 b i j)
      = s (ix3 b i (0 : Fin 2)) * s (ix3 b j (0 : Fin 2)) + s (ix3 b i (1 : Fin 2)) * s (ix3 b j (1 : Fin 2)) := by
  rw [val_main_v0_apply, Fin.sum_univ_two]
  simp only [query_idx, key_idx]

/-- The product of query i with the turned key j is their planar cross product:
    x_i·y_j + y_i·(−x_j) = x_i·y_j − y_i·x_j. -/
theorem cross_apply (s : State) (b : Fin 4) (i j : Fin 8192) :
    val_main_v9 (F := Ideal) s (ix3 b i j)
      = s (ix3 b i (0 : Fin 2)) * s (ix3 b j (1 : Fin 2)) - s (ix3 b i (1 : Fin 2)) * s (ix3 b j (0 : Fin 2)) := by
  rw [val_main_v9_apply, Fin.sum_univ_two]
  simp only [query_idx', key_idx', turned_fst, turned_snd, mul_neg, sub_eq_add_neg]

/-- Inner product plus α times cross product: the similarity of query i and key j. -/
theorem sim_apply (s : State) (b : Fin 4) (i j : Fin 8192) :
    val_main_v12 (F := Ideal) s (ix3 b i j)
      = AttnSpec.sim (s (ix3 b i (0 : Fin 2))) (s (ix3 b i (1 : Fin 2)))
          (s (ix3 b j (0 : Fin 2))) (s (ix3 b j (1 : Fin 2))) := by
  rw [val_main_v12_apply, val_main_v11_apply, val_main_v10_apply, val_main_cst_apply, inner_apply, cross_apply]
  rfl

/-! ## The gated weight -/

/-- Multiplying v by a bit read as 0 or 1, then by g, is v·g where the bit is set and 0 where it is not:
    (v·1)·g = v·g and (v·0)·g = 0. -/
theorem masked_mul (c : BitVec 1) (v g : EReal) :
    (v * ((c.toNat : ℝ) : EReal)) * g = Scalar.select c (v * g) AttnSpec.zero := by
  rcases BitVec.eq_zero_or_eq_one c with h | h
  · subst h
    have h0 : (((0#1 : BitVec 1).toNat : ℝ) : EReal) = 0 := by simp
    rw [h0, mul_zero, zero_mul, select_zero, AttnSpec.zero, Ideal.ofBits_zero_f32]
  · subst h
    have h1 : (((1#1 : BitVec 1).toNat : ℝ) : EReal) = 1 := by simp
    rw [h1, mul_one, select_one]

/-- Every attention entry is the weight of the similarity at that entry: the gate 1 / (ε + |sim|), its comparison
    with ½, and the two products. -/
theorem weight_apply (s : State) (o : S4x8192x8192.Idx) :
    val_main_v22 (F := Ideal) s o = AttnSpec.weight (val_main_v12 (F := Ideal) s o) := by
  rw [val_main_v22_apply, val_main_v21_apply, val_main_v20_apply, val_main_v19_apply, val_main_v18_apply,
    val_main_cst_2_apply, val_main_v17_apply, val_main_v16_apply, val_main_cst_1_apply, val_main_v15_apply,
    val_main_v14_apply, val_main_cst_0_apply, val_main_v13_apply]
  exact masked_mul _ _ _

/-! ## The two results -/

/-- The first result is the attention array: entry (b, i, j) is the weight of query i and key j of batch b. -/
theorem ref_att (s : (⟨Cert.ReferenceIdeal.S4x8192x2, .f32⟩ : BufTy).Contents (Elt Ideal)) :
    Cert.ReferenceIdeal.Read.val_main_v22 (F := Ideal) s = Cert.AttnSpec.att s := by
  funext o
  obtain ⟨b, i, j, rfl⟩ : ∃ (b : Fin 4) (i j : Fin 8192), o = ix3 b i j := ⟨o 0, o 1, o 2, eq_ix3 o⟩
  rw [weight_apply, sim_apply]
  rfl

/-- Entry (b, i, k) of the second result sums over the keys j the attention entry (b, i, j) … -/
theorem row_idx (b : Fin 4) (i : Fin 8192) (k : Fin 2) (j : Fin 8192) : lidx_main_v23 (ix3 b i k) j = ix3 b i j :=
  eq_ix3_of_val _ b i j rfl rfl rfl
/-- … times coordinate k of key j. -/
theorem col_idx (b : Fin 4) (i : Fin 8192) (k : Fin 2) (j : Fin 8192) : ridx_main_v23 (ix3 b i k) j = ix3 b j k :=
  eq_ix3_of_val _ b j k rfl rfl rfl

/-- The second result is the context array: entry (b, i, k) is the sum over the keys j of weight (b, i, j) times
    coordinate k of key j. -/
theorem ref_ctx (s : (⟨Cert.ReferenceIdeal.S4x8192x2, .f32⟩ : BufTy).Contents (Elt Ideal)) :
    Cert.ReferenceIdeal.Read.val_main_v23 (F := Ideal) s = Cert.AttnSpec.ctx s := by
  funext o
  obtain ⟨b, i, k, rfl⟩ : ∃ (b : Fin 4) (i : Fin 8192) (k : Fin 2), o = ix3 b i k := ⟨o 0, o 1, o 2, eq_ix3 o⟩
  rw [val_main_v23_apply, ref_att]
  show _ = ∑ j : Fin 8192, AttnSpec.att s (ix3 b i j) * s (ix3 b j k)
  refine Finset.sum_congr rfl fun j _ => ?_
  rw [row_idx, col_idx]

end Cert.RefValue

end
-- ==== Proof.lean ====
/-
  The certificate's claim: the tiled planar-attention kernel against its reference.

  Both programs map 4 batches of 8192 planar states to the gated attention weights of every (query, key) pair and
  to the weighted sums of the key states (the specification module states the two arrays).  The reference computes
  them whole; the kernel walks a 4 x 8 x 8 grid of 1024 x 1024 tiles, writing each attention tile and accumulating
  the context of a query tile over its eight key tiles in a scratch buffer.

  Frames.  Each kernel program terminates without a fault and leaves the states as launched: the kernel body is run
  once per control case (first, middle, last key tile), the accumulator's contents carried from grid point to
  grid point, and the pipeline is launched with the states' buffer shared in halves between the two windows that
  read it.  The reference is a straight line of host operations; its run is read back with its results dropped.
  Preservation.  The idealized kernel is the kernel's own text read over the extended reals: nothing to state.
  Equality.  Over the extended reals the kernel's two result arrays are the specification's (each written-back
  block is the block of the specified array, and the blocks cover it; eight accumulated tile sums are one sum
  over all keys), and so are the reference's (a difference is a sum with a negation, a 0/1 mask multiplied in is a
  selection) — by commutativity and associativity of sum and product and the laws of 0, 1 and negation alone, so
  that no input needs to be finite.
-/
import proofs.«112722_j14963666059655_2_alg».proof.Defs
import proofs.«112722_j14963666059655_2_alg».proof.Proof.Gen.Kernel
import proofs.«112722_j14963666059655_2_alg».proof.Proof.Gen.KernelIdeal
import proofs.«112722_j14963666059655_2_alg».proof.Proof.Gen.ReferenceIdeal
import proofs.«112722_j14963666059655_2_alg».proof.Proof.Gen.Pre_finite_inputs
import proofs.«112722_j14963666059655_2_alg».proof.Proof.Gen.ReferenceIdeal.Run
import proofs.«112722_j14963666059655_2_alg».proof.Proof.Gen.ReferenceIdeal.Read
import proofs.«112722_j14963666059655_2_alg».proof.Proof.KBFrame
import proofs.«112722_j14963666059655_2_alg».proof.Proof.KIFrame
import proofs.«112722_j14963666059655_2_alg».proof.Proof.KIValue
import proofs.«112722_j14963666059655_2_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Fr.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Fr.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the states, both idealized programs end with the specification's two arrays of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Val.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v22_eq, Cert.RefValue.ref_att, hagree c]
  · rw [(h c).2.1, Cert.ReferenceIdeal.Read.val_main_v23_eq, Cert.RefValue.ref_ctx, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
